-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x768 : Shape := ⟨3, ![8, 1024, 768]⟩
abbrev S2304x768 : Shape := ⟨2, ![2304, 768]⟩
abbrev S768x768 : Shape := ⟨2, ![768, 768]⟩
abbrev S768 : Shape := ⟨1, ![768]⟩
abbrev S_ : Shape := ⟨0, ![]⟩

class Facts : Prop where
  bcast_S_S8x1024x768 : S_.BroadcastsInDim S8x1024x768 (![] : Fin 0 → Fin S8x1024x768.rank)
  reducesTo_S8x1024x768_S_d0_1_2 : S8x1024x768.ReducesTo [0, 1, 2] S_
  h_S_ : 0 < S_.numel
  bcast_S_S2304x768 : S_.BroadcastsInDim S2304x768 (![] : Fin 0 → Fin S2304x768.rank)
  reducesTo_S2304x768_S_d0_1 : S2304x768.ReducesTo [0, 1] S_
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  main_v18

def fn {F : FTy → Type} [FloatOps F] (main_arg0 : FVec F S8x1024x768 .f32) (main_arg1 : FVec F S2304x768 .f32) (main_arg2 : FVec F S768x768 .f32) (main_arg3 : FVec F S768 .f32) : IVec S_ 1 :=
  let main_v0 : FVec F S8x1024x768 .f32 := Host.absf main_arg0
  let main_cst : FVec F S_ .f32 := constant S_ .f32 0x7F800000#32
  let main_v1 : FVec F S8x1024x768 .f32 := broadcastInDim S8x1024x768 ![] bcast_S_S8x1024x768 main_cst
  let main_v2 : IVec S8x1024x768 1 := cmpf .olt main_v0 main_v1
  let main_c : IVec S_ 1 := constantI S_ 1 1#1
  let main_v3 : IVec S_ 1 := (fun x v => Host.reduce IntOp.andi x v reducesTo_S8x1024x768_S_d0_1_2 h_S_) main_v2 main_c
  let main_v4 : FVec F S2304x768 .f32 := Host.absf main_arg1
  let main_cst_0 : FVec F S_ .f32 := constant S_ .f32 0x7F800000#32
  let main_v5 : FVec F S2304x768 .f32 := broadcastInDim S2304x768 ![] bcast_S_S2304x768 main_cst_0
  let main_v6 : IVec S2304x768 1 := cmpf .olt main_v4 main_v5
  let main_c_1 : IVec S_ 1 := constantI S_ 1 1#1
  let main_v7 : IVec S_ 1 := (fun x v => Host.reduce IntOp.andi x v reducesTo_S2304x768_S_d0_1 h_S_) main_v6 main_c_1
  let main_v8 : IVec S_ 1 := andi main_v3 main_v7
  let main_v9 : FVec F S768x768 .f32 := Host.absf main_arg2
  let main_cst_2 : FVec F S_ .f32 := constant S_ .f32 0x7F800000#32
  let main_v10 : FVec F S768x768 .f32 := broadcastInDim S768x768 ![] bcast_S_S768x768 main_cst_2
  let main_v11 : IVec S768x768 1 := cmpf .olt main_v9 main_v10
  let main_c_3 : IVec S_ 1 := constantI S_ 1 1#1
  let main_v12 : IVec S_ 1 := (fun x v => Host.reduce IntOp.andi x v reducesTo_S768x768_S_d0_1 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_v13 main_v16
-- ==== Kernel.lean ====
abbrev S8x1024x768 : Shape := ⟨3, ![8, 1024, 768]⟩
abbrev S2304x768 : Shape := ⟨2, ![2304, 768]⟩
abbrev S768x768 : Shape := ⟨2, ![768, 768]⟩
abbrev S768 : Shape := ⟨1, ![768]⟩
abbrev S8192x768 : Shape := ⟨2, ![8192, 768]⟩
abbrev S8192x2304 : Shape := ⟨2, ![8192, 2304]⟩
abbrev S512x768 : Shape := ⟨2, ![512, 768]⟩
abbrev S512x2304 : Shape := ⟨2, ![512, 2304]⟩
abbrev S1024x128 : Shape := ⟨2, ![1024, 128]⟩
abbrev S1024x64 : Shape := ⟨2, ![1024, 64]⟩
abbrev S64x1024 : Shape := ⟨2, ![64, 1024]⟩
abbrev S1024x1024 : Shape := ⟨2, ![1024, 1024]⟩
abbrev S1x768 : Shape := ⟨2, ![1, 768]⟩

abbrev nBuf : Space → Nat
  | .hbm => 10
  | .vmem => 19
  | .smem => 0
  | _ => 0

abbrev bufTy : (tb : Table) → Fin (tcTables nBuf tb) → BufTy
  | .hbm, ⟨0, _⟩ => ⟨S8x1024x768, .f32⟩
  | .hbm, ⟨1, _⟩ => ⟨S2304x768, .f32⟩
  | .hbm, ⟨2, _⟩ => ⟨S768x768, .f32⟩
  | .hbm, ⟨3, _⟩ => ⟨S768, .f32⟩
  | .hbm, ⟨4, _⟩ => ⟨S8192x768, .f32⟩
  | .hbm, ⟨5, _⟩ => ⟨S8192x2304, .f32⟩
  | .hbm, ⟨6, _⟩ => ⟨S8192x768, .f32⟩
  | .hbm, ⟨7, _⟩ => ⟨S1x768, .f32⟩
  | .hbm, ⟨8, _⟩ => ⟨S8192x768, .f32⟩
  | .hbm, ⟨9, _⟩ => ⟨S8x1024x768, .f32⟩
  | .local _ .vmem, ⟨0, _⟩ => ⟨S512x768, .f32⟩
  | .local _ .vmem, ⟨1, _⟩ => ⟨S512x768, .f32⟩
  | .local _ .vmem, ⟨2, _⟩ => ⟨S2304x768, .f32⟩
  | .local _ .vmem, ⟨3, _⟩ => ⟨S512x2304, .f32⟩
  | .local _ .vmem, ⟨4, _⟩ => ⟨S512x2304, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S512x768, .f32⟩
  | .local _ .vmem, ⟨14, _⟩ => ⟨S512x768, .f32⟩
  | .local _ .vmem, ⟨15, _⟩ => ⟨S768x768, .f32⟩
  | .local _ .vmem, ⟨16, _⟩ => ⟨S1x768, .f32⟩
  | .local _ .vmem, ⟨17, _⟩ => ⟨S512x768, .f32⟩
  | .local _ .vmem, ⟨18, _⟩ => ⟨S512x768, .f32⟩
  | _, _ => ⟨S8x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem3_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2304x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 6], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  ![arg0.toNat, v0.toNat]

def cc1_transform_2 (i : grid1.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x768 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S768x768 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x768 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x768 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S8x1024x768_S8192x768 : S8x1024x768.ShapeCasts S8192x768
  inb_S512x768_S512x768_0_0 : ∀ a, (![0, 0] : Fin 2 → Nat) a + S512x768.size a ≤ S512x768.size a
  h_S512x768 : 0 < S512x768.numel
  shapeCasts_S512x768_S512x768 : S512x768.ShapeCasts S512x768
  bitsLt_bf16_f32 : FTy.bits .bf16 < FTy.bits .f32
  inb_S2304x768_S2304x768_0_0 : ∀ a, (![0, 0] : Fin 2 → Nat) a + S2304x768.size a ≤ S2304x768.size a
  h_S2304x768 : 0 < S2304x768.numel
  inb_S512x2304_S512x2304_0_0 : ∀ a, (![0, 0] : Fin 2 → Nat) a + S512x2304.size a ≤ S512x2304.size a
  h_S512x2304 : 0 < S512x2304.numel
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  slices_S1024x128_o0_0_S1024x64 : S1024x128.Slices ![0, 0] S1024x64
  transposes_S1024x64_p1_0_S64x1024 : S1024x64.Transposes [1, 0] S64x1024
  slices_S1024x128_o0_64_S1024x64 : S1024x128.Slices ![0, 64] S1024x64
  concatenates_S1024x64_S1024x64_S1024x128_d1 : Shape.Concatenates [S1024x64, S1024x64] S1024x128 1
  shapeCasts_S768_S1x768 : S768.ShapeCasts S1x768
  inb_S768x768_S768x768_0_0 : ∀ a, (![0, 0] : Fin 2 → Nat) a + S768x768.size a ≤ S768x768.size a
  h_S768x768 : 0 < S768x768.numel
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S512x768 : S1x768.Broadcasts S512x768
  shapeCasts_S8192x768_S8x1024x768 : S8192x768.ShapeCasts S8x1024x768
  dot_S512x768_S2304x768_S512x2304_1_1_0_0_n_n_wf : DotDims.WF S512x768 S2304x768 S512x2304 [1] [1] [0] [0] [] []
  dot_S1024x64_S64x1024_S1024x1024_1_0_0_1_n_n_wf : DotDims.WF S1024x64 S64x1024 S1024x1024 [1] [0] [0] [1] [] []
  dot_S1024x1024_S1024x64_S1024x64_1_0_0_1_n_n_wf : DotDims.WF S1024x1024 S1024x64 S1024x64 [1] [0] [0] [1] [] []
  dot_S512x768_S768x768_S512x768_1_1_0_0_n_n_wf : DotDims.WF S512x768 S768x768 S512x768 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x768.size a ≤ S8192x768.size a
  hwx0_0 : ∀ i : grid0.Coords, EltTy.bits .f32 = 32 ∨ (Rect.block (s := S8192x768) S512x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2304x768.size a ≤ S2304x768.size a
  hwx0_1 : ∀ i : grid0.Coords, EltTy.bits .f32 = 32 ∨ (Rect.block (s := S2304x768) S2304x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2304.size a ≤ S8192x2304.size a
  hwx0_2 : ∀ i : grid0.Coords, EltTy.bits .f32 = 32 ∨ (Rect.block (s := S8192x2304) S512x2304.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S8192x2304.size a
  hwx1_0 : ∀ i : grid1.Coords, EltTy.bits .f32 = 32 ∨ (Rect.block (s := S8192x2304) S1024x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S8192x2304.size a
  hwx1_1 : ∀ i : grid1.Coords, EltTy.bits .f32 = 32 ∨ (Rect.block (s := S8192x2304) S1024x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S8192x2304.size a
  hwx1_2 : ∀ i : grid1.Coords, EltTy.bits .f32 = 32 ∨ (Rect.block (s := S8192x2304) S1024x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x128.size a ≤ S8192x768.size a
  hwx1_3 : ∀ i : grid1.Coords, EltTy.bits .f32 = 32 ∨ (Rect.block (s := S8192x768) S1024x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x768.size a ≤ S8192x768.size a
  hwx2_0 : ∀ i : grid2.Coords, EltTy.bits .f32 = 32 ∨ (Rect.block (s := S8192x768) S512x768.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S768x768.size a ≤ S768x768.size a
  hwx2_1 : ∀ i : grid2.Coords, EltTy.bits .f32 = 32 ∨ (Rect.block (s := S768x768) S768x768.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x768.size a ≤ S1x768.size a
  hwx2_2 : ∀ i : grid2.Coords, EltTy.bits .f32 = 32 ∨ (Rect.block (s := S1x768) S1x768.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x768.size a ≤ S8192x768.size a
  hwx2_3 : ∀ i : grid2.Coords, EltTy.bits .f32 = 32 ∨ (Rect.block (s := S8192x768) S512x768.size (cc2_transform_3 i) (hinb2_3 i)).WholeWords (EltTy.packing .f32)

variable [Facts₀]

def dot_S512x768_S2304x768_S512x2304_1_1_0_0_n_n : DotDims S512x768 S2304x768 S512x2304 where
  lhsContracting := [1]
  rhsContracting := [1]
  lhsNonContracting := [0]
  rhsNonContracting := [0]
  lhsBatch := []
  rhsBatch := []
  wf := dot_S512x768_S2304x768_S512x2304_1_1_0_0_n_n_wf
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S512x768_S768x768_S512x768_1_1_0_0_n_n : DotDims S512x768 S768x768 S512x768 where
  lhsContracting := [1]
  rhsContracting := [1]
  lhsNonContracting := [0]
  rhsNonContracting := [0]
  lhsBatch := []
  rhsBatch := []
  wf := dot_S512x768_S768x768_S512x768_1_1_0_0_n_n_wf

abbrev win0_0 : Pipeline.Window sig grid0 :=
  Pipeline.Window.ofSpec (Memref.whole main_v0) S512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2304x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x2304.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1024x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v2) S512x768.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S768x768.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v3) S1x768.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v4) S512x768.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S8x1024x768 : Shape := ⟨3, ![8, 1024, 768]⟩
abbrev S2304x768 : Shape := ⟨2, ![2304, 768]⟩
abbrev S768x768 : Shape := ⟨2, ![768, 768]⟩
abbrev S768 : Shape := ⟨1, ![768]⟩
abbrev S8x1024x2304 : Shape := ⟨3, ![8, 1024, 2304]⟩
abbrev S8x1024x12x64 : Shape := ⟨4, ![8, 1024, 12, 64]⟩
abbrev S8x12x1024x64 : Shape := ⟨4, ![8, 12, 1024, 64]⟩
abbrev S8x12x1024x1024 : Shape := ⟨4, ![8, 12, 1024, 1024]⟩
abbrev S_ : Shape := ⟨0, ![]⟩
abbrev S1x1x768 : Shape := ⟨3, ![1, 1, 768]⟩

abbrev nBuf : Space → Nat
  | .hbm => 25
  | .vmem => 0
  | .smem => 0
  | _ => 0

abbrev bufTy : (tb : Table) → Fin (tcTables nBuf tb) → BufTy
  | .hbm, ⟨0, _⟩ => ⟨S8x1024x768, .f32⟩
  | .hbm, ⟨1, _⟩ => ⟨S2304x768, .f32⟩
  | .hbm, ⟨2, _⟩ => ⟨S768x768, .f32⟩
  | .hbm, ⟨3, _⟩ => ⟨S768, .f32⟩
  | .hbm, ⟨4, _⟩ => ⟨S8x1024x2304, .f32⟩
  | .hbm, ⟨5, _⟩ => ⟨S8x1024x768, .f32⟩
  | .hbm, ⟨6, _⟩ => ⟨S8x1024x768, .f32⟩
  | .hbm, ⟨7, _⟩ => ⟨S8x1024x768, .f32⟩
  | .hbm, ⟨8, _⟩ => ⟨S8x1024x12x64, .f32⟩
  | .hbm, ⟨9, _⟩ => ⟨S8x12x1024x64, .f32⟩
  | .hbm, ⟨10, _⟩ => ⟨S8x1024x12x64, .f32⟩
  | .hbm, ⟨11, _⟩ => ⟨S8x12x1024x64, .f32⟩
  | .hbm, ⟨12, _⟩ => ⟨S8x1024x12x64, .f32⟩
  | .hbm, ⟨13, _⟩ => ⟨S8x12x1024x64, .f32⟩
  | .hbm, ⟨14, _⟩ => ⟨S8x12x1024x1024, .f32⟩
  | .hbm, ⟨15, _⟩ => ⟨S_, .f32⟩
  | .hbm, ⟨16, _⟩ => ⟨S8x12x1024x1024, .f32⟩
  | .hbm, ⟨17, _⟩ => ⟨S8x12x1024x1024, .f32⟩
  | .hbm, ⟨18, _⟩ => ⟨S8x12x1024x64, .f32⟩
  | .hbm, ⟨19, _⟩ => ⟨S8x1024x12x64, .f32⟩
  | .hbm, ⟨20, _⟩ => ⟨S8x1024x768, .f32⟩
  | .hbm, ⟨21, _⟩ => ⟨S8x1024x768, .f32⟩
  | .hbm, ⟨22, _⟩ => ⟨S1x1x768, .f32⟩
  | .hbm, ⟨23, _⟩ => ⟨S8x1024x768, .f32⟩
  | .hbm, ⟨24, _⟩ => ⟨S8x1024x768, .f32⟩
  | _, _ => ⟨S8x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩

abbrev nD : Nat := 1
abbrev τ : Topo := Topo.v7x

variable {F : FTy → Type} [FloatOps F]

class Facts₀ : Prop where
  slices_S8x1024x2304_S8x1024x768_0_0_0 : S8x1024x2304.Slices ![0, 0, 0] S8x1024x768
  slices_S8x1024x2304_S8x1024x768_0_0_768 : S8x1024x2304.Slices ![0, 0, 768] S8x1024x768
  slices_S8x1024x2304_S8x1024x768_0_0_1536 : S8x1024x2304.Slices ![0, 0, 1536] S8x1024x768
  shapeCasts_S8x1024x768_S8x1024x12x64 : S8x1024x768.ShapeCasts S8x1024x12x64
  transposes_S8x1024x12x64_S8x12x1024x64_0_2_1_3 : S8x1024x12x64.Transposes [0, 2, 1, 3] S8x12x1024x64
  bcast_S_S8x12x1024x1024 : S_.BroadcastsInDim S8x12x1024x1024 (![] : Fin 0 → Fin S8x12x1024x1024.rank)
  transposes_S8x12x1024x64_S8x1024x12x64_0_2_1_3 : S8x12x1024x64.Transposes [0, 2, 1, 3] S8x1024x12x64
  shapeCasts_S8x1024x12x64_S8x1024x768 : S8x1024x12x64.ShapeCasts S8x1024x768
  bcast_S768_S1x1x768_2 : S768.BroadcastsInDim S1x1x768 (![2] : Fin 1 → Fin S1x1x768.rank)
  bcast_S1x1x768_S8x1024x768_0_1_2 : S1x1x768.BroadcastsInDim S8x1024x768 (![0, 1, 2] : Fin 3 → Fin S8x1024x768.rank)
  dot_S8x1024x768_S2304x768_S8x1024x2304_2_1_01_0_n_n_wf : DotDims.WF S8x1024x768 S2304x768 S8x1024x2304 [2] [1] [0, 1] [0] [] []
  dot_S8x12x1024x64_S8x12x1024x64_S8x12x1024x1024_3_3_2_2_01_01_wf : DotDims.WF S8x12x1024x64 S8x12x1024x64 S8x12x1024x1024 [3] [3] [2] [2] [0, 1] [0, 1]
  dot_S8x12x1024x1024_S8x12x1024x64_S8x12x1024x64_3_2_2_3_01_01_wf : DotDims.WF S8x12x1024x1024 S8x12x1024x64 S8x12x1024x64 [3] [2] [2] [3] [0, 1] [0, 1]
  dot_S8x1024x768_S768x768_S8x1024x768_2_1_01_0_n_n_wf : DotDims.WF S8x1024x768 S768x768 S8x1024x768 [2] [1] [0, 1] [0] [] []

variable [Facts₀]

def dot_S8x1024x768_S2304x768_S8x1024x2304_2_1_01_0_n_n : DotDims S8x1024x768 S2304x768 S8x1024x2304 where
  lhsContracting := [2]
  rhsContracting := [1]
  lhsNonContracting := [0, 1]
  rhsNonContracting := [0]
  lhsBatch := []
  rhsBatch := []
  wf := dot_S8x1024x768_S2304x768_S8x1024x2304_2_1_01_0_n_n_wf
def dot_S8x12x1024x64_S8x12x1024x64_S8x12x1024x1024_3_3_2_2_01_01 : DotDims S8x12x1024x64 S8x12x1024x64 S8x12x1024x1024 where
  lhsContracting := [3]
  rhsContracting := [3]
  lhsNonContracting := [2]
  rhsNonContracting := [2]
  lhsBatch := [0, 1]
  rhsBatch := [0, 1]
  wf := dot_S8x12x1024x64_S8x12x1024x64_S8x12x1024x1024_3_3_2_2_01_01_wf
def dot_S8x12x1024x1024_S8x12x1024x64_S8x12x1024x64_3_2_2_3_01_01 : DotDims S8x12x1024x1024 S8x12x1024x64 S8x12x1024x64 where
  lhsContracting := [3]
  rhsContracting := [2]
  lhsNonContracting := [2]
  rhsNonContracting := [3]
  lhsBatch := [0, 1]
  rhsBatch := [0, 1]
  wf := dot_S8x12x1024x1024_S8x12x1024x64_S8x12x1024x64_3_2_2_3_01_01_wf
def dot_S8x1024x768_S768x768_S8x1024x768_2_1_01_0_n_n : DotDims S8x1024x768 S768x768 S8x1024x768 where
  lhsContracting := [2]
  rhsContracting := [1]
  lhsNonContracting := [0, 1]
  rhsNonContracting := [0]
  lhsBatch := []
  rhsBatch := []
  wf := dot_S8x1024x768_S768x768_S8x1024x768_2_1_01_0_n_n_wf

class Facts : Prop extends Facts₀ where

variable [Facts]
-- ==== Proof.KernelRegion0.lean ====
/-
  Pallas call 0 of the program (the q/k/v projection: a 512-row block of the activations against the whole weight), at the buffer contents `V` the region is entered with: each window's block
  at a grid point, what the kernel body leaves in the output window's staging buffer as a function of the input
  blocks, the body's triple (every load reads the whole block, the one store overwrites the whole output block), and
  the proof data and body obligation the pipeline rule takes. Stated at any float instance.
-/
import proofs.«123587_j84585085927925_2_alg».proof.Proof.Gen.Kernel.Launch
import proofs.«123587_j84585085927925_2_alg».proof.Proof.Gen.Kernel.Skeleton
import proofs.«123587_j84585085927925_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: an unfetched
    window's block index has not moved since the point that fetched it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: an unfetched
    window's block index has not moved since the point that fetched it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store go through the whole block -/

abbrev r0_0 : Rect S512x768 := Rect.unit (s := S512x768) ![0, 0] S512x768.size inb_S512x768_S512x768_0_0
abbrev r0_1 : Rect S2304x768 := Rect.unit (s := S2304x768) ![0, 0] S2304x768.size inb_S2304x768_S2304x768_0_0
abbrev r0_2 : Rect S512x2304 := Rect.unit (s := S512x2304) ![0, 0] S512x2304.size inb_S512x2304_S512x2304_0_0

/-- What the body leaves in the output window's staging buffer, from the input windows' blocks: its one store. -/
def out0_2 (x0 : Vec F S512x768 .f32) (x1 : Vec F S2304x768 .f32) : Vec F S512x2304 .f32 :=
  View.canon [⟨r0_2, k0_pay1 (View.ld x0 r0_0) (View.ld x1 r0_1)⟩]

/-- The store covers the buffer. -/
theorem cover0_2 (p0 : Vec F S512x2304 .f32) (y : S512x2304.Idx) :
    ∃ pc ∈ ([⟨r0_2, p0⟩] : List (View.Piece (Elt F) S512x2304 .f32)), y ∈ pc.1.set :=
  View.cover_of_tiled [⟨r0_2, p0⟩] S512x2304.size (by rfl) y

/-! ## The body's triple -/

set_option maxHeartbeats 4000000 in
/-- The kernel body on whole staging memrefs, the inputs' at contents `xW` and the output's at anything, runs to the
    continuation holding the inputs' as they were and the output's at `out0_2` of the inputs'. -/
theorem sound_kernel0 (c : Dev nD) (E : Set ℕ) (i : grid0.Coords) (a0 : Memref sig .tc .vmem S512x768 .f32) (ha0 : a0.IsWhole) (a1 : Memref sig .tc .vmem S2304x768 .f32) (ha1 : a1.IsWhole) (a2 : Memref sig .tc .vmem S512x2304 .f32) (ha2 : a2.IsWhole)
    (x0 : Vec F S512x768 .f32) (x1 : Vec F S2304x768 .f32) (K : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1 ∗ owns (c : Thread nD τ) a2 fullShare (out0_2 x0 x1)) -∗ K ⟨⟩))
      ⊢ wp frame (wpE (defs₀ (F := F)) Variants.none c none) E (cc0__linear_resident_kernel i a0 ha0 a1 ha1 a2 ha2) K := by
  simp only [cc0__linear_resident_kernel_eq_skeleton]; unfold cc0__linear_resident_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them; after the body at point `t` each
    input's buffer at its block and the output's at `out0_2` of the input blocks; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KernelRegion1.lean ====
/-
  Pallas call 1 of the program (the attention core: one batch and one pair of heads per grid point, its q, k and v blocks all read out of the one projected array), at the buffer contents `V` the region is entered with: each window's block
  at a grid point, what the kernel body leaves in the output window's staging buffer as a function of the input
  blocks, the body's triple (every load reads the whole block, the one store overwrites the whole output block), and
  the proof data and body obligation the pipeline rule takes. Stated at any float instance.
-/
import proofs.«123587_j84585085927925_2_alg».proof.Proof.Gen.Kernel.Launch
import proofs.«123587_j84585085927925_2_alg».proof.Proof.Gen.Kernel.Skeleton
import proofs.«123587_j84585085927925_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: an unfetched
    window's block index has not moved since the point that fetched it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: an unfetched
    window's block index has not moved since the point that fetched it. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not: an unfetched
    window's block index has not moved since the point that fetched it. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store go through the whole block -/

abbrev r1_0 : Rect S1024x128 := Rect.unit (s := S1024x128) ![0, 0] S1024x128.size inb_S1024x128_S1024x128_0_0
abbrev r1_1 : Rect S1024x128 := Rect.unit (s := S1024x128) ![0, 0] S1024x128.size inb_S1024x128_S1024x128_0_0
abbrev r1_2 : Rect S1024x128 := Rect.unit (s := S1024x128) ![0, 0] S1024x128.size inb_S1024x128_S1024x128_0_0
abbrev r1_3 : Rect S1024x128 := Rect.unit (s := S1024x128) ![0, 0] S1024x128.size inb_S1024x128_S1024x128_0_0

/-- What the body leaves in the output window's staging buffer, from the input windows' blocks: its one store. -/
def out1_3 (x0 : Vec F S1024x128 .f32) (x1 : Vec F S1024x128 .f32) (x2 : Vec F S1024x128 .f32) : Vec F S1024x128 .f32 :=
  View.canon [⟨r1_3, k1_pay1 (View.ld x0 r1_0) (View.ld x1 r1_1) (View.ld x2 r1_2)⟩]

/-- The store covers the buffer. -/
theorem cover1_3 (p0 : Vec F S1024x128 .f32) (y : S1024x128.Idx) :
    ∃ pc ∈ ([⟨r1_3, p0⟩] : List (View.Piece (Elt F) S1024x128 .f32)), y ∈ pc.1.set :=
  View.cover_of_tiled [⟨r1_3, p0⟩] S1024x128.size (by rfl) y

/-! ## The body's triple -/

set_option maxHeartbeats 4000000 in
/-- The kernel body on whole staging memrefs, the inputs' at contents `xW` and the output's at anything, runs to the
    continuation holding the inputs' as they were and the output's at `out1_3` of the inputs'. -/
theorem sound_kernel1 (c : Dev nD) (E : Set ℕ) (i : grid1.Coords) (a0 : Memref sig .tc .vmem S1024x128 .f32) (ha0 : a0.IsWhole) (a1 : Memref sig .tc .vmem S1024x128 .f32) (ha1 : a1.IsWhole) (a2 : Memref sig .tc .vmem S1024x128 .f32) (ha2 : a2.IsWhole) (a3 : Memref sig .tc .vmem S1024x128 .f32) (ha3 : a3.IsWhole)
    (x0 : Vec F S1024x128 .f32) (x1 : Vec F S1024x128 .f32) (x2 : Vec F S1024x128 .f32) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (out1_3 x0 x1 x2)) -∗ K ⟨⟩))
      ⊢ wp frame (wpE (defs₀ (F := F)) Variants.none c none) E (cc1__attn_kernel i a0 ha0 a1 ha1 a2 ha2 a3 ha3) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them; after the body at point `t` each
    input's buffer at its block and the output's at `out1_3` of the input blocks; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q w := match w with
    | ⟨0, _⟩ => fullShare.left
    | ⟨1, _⟩ => fullShare.right.left
    | ⟨2, _⟩ => fullShare.right.right
    | ⟨3, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KernelShare1.lean ====
/-
  Pallas call 1 reads its q, k and v blocks out of ONE array (the projected activations) through three input windows,
  and writes a fourth. The pipeline holds each window's array at that window's own share, so at the region's entry the
  projected array's full share is dealt into three parts (a half, and two quarters), one per reading window, and at the
  exit the three parts — all still at the entry contents, an input window's array being never written — are joined
  back into the full share. The output array is held whole throughout and leaves at what the write-backs made of it.
-/
import proofs.«123587_j84585085927925_2_alg».proof.Proof.KernelRegion1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A buffer's full share is a half and two quarters, at the same contents; -/
theorem split3 (ℓ : Loc nD τ sig) (f : ℓ.ty.Contents (Elt F)) :
    (ℓ ↦{fullShare} f : sProp 𝕄)
      ⊢ iprop((ℓ ↦{fullShare.left} f) ∗ (ℓ ↦{fullShare.right.left} f) ∗ ℓ ↦{fullShare.right.right} f) := by
  iintro H
  ihave H' := (pointsTo_share (PosShare.mem_left_op_right fullShare)).1 $$ H
  icases H' with ⟨Hl, Hr⟩
  isplitl [Hl]; · iexact Hl
  iapply (pointsTo_share (PosShare.mem_left_op_right fullShare.right)).1
  iexact Hr

/-- and the three parts join to the full share again. -/
theorem join3 (ℓ : Loc nD τ sig) (f : ℓ.ty.Contents (Elt F)) :
    iprop((ℓ ↦{fullShare.left} f) ∗ (ℓ ↦{fullShare.right.left} f) ∗ ℓ ↦{fullShare.right.right} f)
      ⊢ (ℓ ↦{fullShare} f : sProp 𝕄) := by
  iintro ⟨Hl, Hrl, Hrr⟩
  iapply (pointsTo_share (PosShare.mem_left_op_right fullShare)).2
  isplitl [Hl]; · iexact Hl
  iapply (pointsTo_share (PosShare.mem_left_op_right fullShare.right)).2
  isplitl [Hrl] <;> iassumption

/-- Pipeline 1's arrays at contents `G`, window by window: every array a whole buffer. -/
theorem arrays1_eq (c : Dev nD) (G : (w : Fin cfg1.W) → Buf (Elt F) ((cfg1.win w).arr.view.loc (c : Thread nD τ))) :
    (dat1 V c).arrays G
      = bigSep Finset.univ fun w : Fin 4 => (((c : Thread nD τ).loc (Pipeline.arrRef spec1 w)) ↦{(dat1 V c).share w} G w : sProp 𝕄) := by
  unfold Pipeline.Dat.arrays
  exact bigSep_congr fun w _ => by rw [(arr_whole1 w).set_eq_univ]

/-- The buffers behind pipeline 1's arrays: the projected array (three windows) and the output array. -/
theorem arrs1 : Finset.univ.image (Pipeline.arrRef spec1) = ({main_v1, main_v2} : Finset (Ref sig .tc)) := by decide
theorem arrs1_sub : ({main_v1, main_v2} : Finset (Ref sig .tc)) ⊆ Finset.univ.filter fun b : Ref sig .tc => ¬ b.isScoped := by decide

/-- ENTRY: the core's unscoped buffers at `V` are pipeline 1's arrays, each at its window's share and at the entry
    contents, and the buffers no window of it stages. -/
theorem entry1 (c : Dev nD) :
    (unscopedBufs (Ix := Unit) (Name := ℕ) (U := UR sig nD τ) (Lvl := ℕ) c (V c) : sProp 𝕄)
      ⊢ iprop((dat1 V c).arrays ((dat1 V c).arrAt · 0) ∗ Pipeline.unscopedRest spec1 c (V c)) := by
  classical
  unfold unscopedBufs Pipeline.unscopedRest
  rw [arrs1, bigSep_sdiff_split arrs1_sub, bigSep_insert (by decide), bigSep_singleton, arrays1_eq, bigSep_W1]
  refine BIClass.sep_mono ?_ .rfl
  show iprop((((c : Thread nD τ).loc main_v1) ↦{fullShare} V c main_v1) ∗ (((c : Thread nD τ).loc main_v2) ↦{fullShare} V c main_v2))
    ⊢ (iprop(((((c : Thread nD τ).loc main_v1) ↦{fullShare.left} V c main_v1))
        ∗ ((((c : Thread nD τ).loc main_v1) ↦{fullShare.right.left} V c main_v1))
        ∗ ((((c : Thread nD τ).loc main_v1) ↦{fullShare.right.right} V c main_v1))
        ∗ (((c : Thread nD τ).loc main_v2) ↦{fullShare} V c main_v2)) : sProp 𝕄)
  iintro ⟨H1, H2⟩
  ihave H1' := (split3 ((c : Thread nD τ).loc main_v1) (V c main_v1)) $$ H1
  icases H1' with ⟨Ha, Hb, Hc⟩
  isplitl [Ha]; · iexact Ha
  isplitl [Hb]; · iexact Hb
  isplitl [Hc]; · iexact Hc
  iexact H2

/-- EXIT: the arrays at what the pipeline leaves and the other buffers as entered are the core's unscoped buffers at
    any contents `V'` that have the output array at what the write-backs left and agree with `V` elsewhere. -/
theorem exit1 (V' : (c : Dev nD) → (b : Ref sig .tc) → Buf (Elt F) ((c : Thread nD τ).loc b)) (c : Dev nD)
    (hout : V' c main_v2 = (dat1 V c).arrAt 3 cfg1.N) (hrest : ∀ b : Ref sig .tc, b ≠ main_v2 → V' c b = V c b) :
    iprop((dat1 V c).arrays ((dat1 V c).arrAt · cfg1.N) ∗ Pipeline.unscopedRest spec1 c (V c))
      ⊢ (unscopedBufs (Ix := Unit) (Name := ℕ) (U := UR sig nD τ) (Lvl := ℕ) c (V' c) : sProp 𝕄) := by
  classical
  have h0 : (dat1 V c).arrAt 0 cfg1.N = V c main_v1 := ((dat1 V c).arrAt_in 0 rfl _).trans (A_eq1 V c 0)
  have h1 : (dat1 V c).arrAt 1 cfg1.N = V c main_v1 := ((dat1 V c).arrAt_in 1 rfl _).trans (A_eq1 V c 1)
  have h2 : (dat1 V c).arrAt 2 cfg1.N = V c main_v1 := ((dat1 V c).arrAt_in 2 rfl _).trans (A_eq1 V c 2)
  unfold unscopedBufs Pipeline.unscopedRest
  rw [arrs1, bigSep_sdiff_split arrs1_sub, bigSep_insert (by decide), bigSep_singleton, arrays1_eq, bigSep_W1]
  refine BIClass.sep_mono ?_ (Entails.of_eq (bigSep_congr fun b hb => by
    rw [hrest b (fun e => (Finset.mem_sdiff.mp hb).2 (by rw [e]; decide))]))
  rw [hrest main_v1 (by decide), hout]
  show (iprop(((((c : Thread nD τ).loc main_v1) ↦{fullShare.left} (dat1 V c).arrAt 0 cfg1.N))
        ∗ ((((c : Thread nD τ).loc main_v1) ↦{fullShare.right.left} (dat1 V c).arrAt 1 cfg1.N))
        ∗ ((((c : Thread nD τ).loc main_v1) ↦{fullShare.right.right} (dat1 V c).arrAt 2 cfg1.N))
        ∗ (((c : Thread nD τ).loc main_v2) ↦{fullShare} (dat1 V c).arrAt 3 cfg1.N)) : sProp 𝕄)
    ⊢ iprop((((c : Thread nD τ).loc main_v1) ↦{fullShare} V c main_v1) ∗ (((c : Thread nD τ).loc main_v2) ↦{fullShare} (dat1 V c).arrAt 3 cfg1.N))
  rw [h0, h1, h2]
  iintro ⟨Ha, Hb, Hc, H2⟩
  isplitr [H2]
  · iapply (join3 ((c : Thread nD τ).loc main_v1) (V c main_v1))
    isplitl [Ha]; · iexact Ha
    isplitl [Hb]; · iexact Hb
    iexact Hc
  iexact H2

end Cert.Kernel.Hand

end
-- ==== Proof.KernelRegion2.lean ====
/-
  Pallas call 2 of the program (the output projection: a 512-row block of the attention output against the whole weight, plus the bias row), at the buffer contents `V` the region is entered with: each window's block
  at a grid point, what the kernel body leaves in the output window's staging buffer as a function of the input
  blocks, the body's triple (every load reads the whole block, the one store overwrites the whole output block), and
  the proof data and body obligation the pipeline rule takes. Stated at any float instance.
-/
import proofs.«123587_j84585085927925_2_alg».proof.Proof.Gen.Kernel.Launch
import proofs.«123587_j84585085927925_2_alg».proof.Proof.Gen.Kernel.Skeleton
import proofs.«123587_j84585085927925_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not: an unfetched
    window's block index has not moved since the point that fetched it. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not: an unfetched
    window's block index has not moved since the point that fetched it. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not: an unfetched
    window's block index has not moved since the point that fetched it. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the one store go through the whole block -/

abbrev r2_0 : Rect S512x768 := Rect.unit (s := S512x768) ![0, 0] S512x768.size inb_S512x768_S512x768_0_0
abbrev r2_1 : Rect S768x768 := Rect.unit (s := S768x768) ![0, 0] S768x768.size inb_S768x768_S768x768_0_0
abbrev r2_2 : Rect S1x768 := Rect.unit (s := S1x768) ![0, 0] S1x768.size inb_S1x768_S1x768_0_0
abbrev r2_3 : Rect S512x768 := Rect.unit (s := S512x768) ![0, 0] S512x768.size inb_S512x768_S512x768_0_0

/-- What the body leaves in the output window's staging buffer, from the input windows' blocks: its one store. -/
def out2_3 (x0 : Vec F S512x768 .f32) (x1 : Vec F S768x768 .f32) (x2 : Vec F S1x768 .f32) : Vec F S512x768 .f32 :=
  View.canon [⟨r2_3, k2_pay1 (View.ld x0 r2_0) (View.ld x1 r2_1) (View.ld x2 r2_2)⟩]

/-- The store covers the buffer. -/
theorem cover2_3 (p0 : Vec F S512x768 .f32) (y : S512x768.Idx) :
    ∃ pc ∈ ([⟨r2_3, p0⟩] : List (View.Piece (Elt F) S512x768 .f32)), y ∈ pc.1.set :=
  View.cover_of_tiled [⟨r2_3, p0⟩] S512x768.size (by rfl) y

/-! ## The body's triple -/

set_option maxHeartbeats 4000000 in
/-- The kernel body on whole staging memrefs, the inputs' at contents `xW` and the output's at anything, runs to the
    continuation holding the inputs' as they were and the output's at `out2_3` of the inputs'. -/
theorem sound_kernel2 (c : Dev nD) (E : Set ℕ) (i : grid2.Coords) (a0 : Memref sig .tc .vmem S512x768 .f32) (ha0 : a0.IsWhole) (a1 : Memref sig .tc .vmem S768x768 .f32) (ha1 : a1.IsWhole) (a2 : Memref sig .tc .vmem S1x768 .f32) (ha2 : a2.IsWhole) (a3 : Memref sig .tc .vmem S512x768 .f32) (ha3 : a3.IsWhole)
    (x0 : Vec F S512x768 .f32) (x1 : Vec F S768x768 .f32) (x2 : Vec F S1x768 .f32) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (out2_3 x0 x1 x2)) -∗ K ⟨⟩))
      ⊢ wp frame (wpE (defs₀ (F := F)) Variants.none c none) E (cc2__linear_bias_resident_kernel i a0 ha0 a1 ha1 a2 ha2 a3 ha3) K := by
  simp only [cc2__linear_bias_resident_kernel_eq_skeleton]; unfold cc2__linear_bias_resident_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of pipeline 2 on core `c`: the arrays as the region finds them; after the body at point `t` each
    input's buffer at its block and the output's at `out2_3` of the input blocks; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KernelRun.lean ====
/-
  The program's run from launch to return, at any float instance. @main is six segments: a reshape of the activations,
  the q/k/v projection, the attention core, a reshape of the bias, the output projection, and a reshape of the result.
  The buffer contents at each boundary are a fold from the launch memory: a host stretch applies its operations; a
  pallas call leaves its output array at what its grid points' write-backs made of it and every other buffer as
  entered. Each pallas call is a region segment over the thread state "every unscoped buffer at the boundary's
  contents, the generator register at some state, nothing owed": its arrays are taken out of the held buffers at
  entry and put back at exit. The run ends with every unscoped buffer at the last boundary's contents; read at the
  argument arrays the fold walks back to the launch memory, no segment writing an argument.
-/
import proofs.«123587_j84585085927925_2_alg».proof.Proof.KernelRegion0
import proofs.«123587_j84585085927925_2_alg».proof.Proof.KernelShare1
import proofs.«123587_j84585085927925_2_alg».proof.Proof.KernelRegion2
import proofs.«123587_j84585085927925_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the reshape of the activations (the projection's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the attention core's exit: its output array at what the pipeline leaves, every other buffer (the projected
    array it reads through three windows among them) as entered. -/
def W3 (c : Dev nD) : Valuation τ sig (Elt F) :=
  Function.update (W2 m ρ c) (Proc.devRef .tc main_v2) ((dat1 (V2 m ρ) c).arrAt 3 cfg1.N)
theorem W3_out (c : Dev nD) : W3 m ρ c (Proc.devRef .tc main_v2) = (dat1 (V2 m ρ) c).arrAt 3 cfg1.N := by
  unfold W3; exact Function.update_self ..
theorem W3_of_ne (c : Dev nD) (b : Ref sig .tc) (hb : b ≠ main_v2) :
    W3 m ρ c (Proc.devRef .tc b) = W2 m ρ c (Proc.devRef .tc b) := by
  unfold W3; exact Function.update_of_ne (StableHlo.devRef_ne_of_ne hb) _ _
abbrev V3 : (c : Dev nD) → (b : Ref sig .tc) → Buf (Elt F) ((c : Thread nD τ).loc b) := fun c b => W3 m ρ c b

/-- After the reshape of the bias (the output projection's entry). -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b
/-- At the output projection's exit. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)
/-- After the reshape of the result: the return. -/
abbrev W6 : Dev nD → Valuation τ sig (Elt F) := fun c => StableHlo.after hostOps3 (W5 m ρ c)

/-! ### The arguments end as launched -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := StableHlo.after_of_writes_sub hostOps3 _ hostOps3_writes (by decide)
    _ = W4 m ρ c (Proc.devRef .tc main_arg0) := W5_of_ne m ρ c main_arg0 (by decide)
    _ = W3 m ρ c (Proc.devRef .tc main_arg0) := StableHlo.after_of_writes_sub hostOps2 _ hostOps2_writes (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := StableHlo.after_of_writes_sub hostOps3 _ hostOps3_writes (by decide)
    _ = W4 m ρ c (Proc.devRef .tc main_arg1) := W5_of_ne m ρ c main_arg1 (by decide)
    _ = W3 m ρ c (Proc.devRef .tc main_arg1) := StableHlo.after_of_writes_sub hostOps2 _ hostOps2_writes (by decide)
    _ = W2 m ρ c (Proc.devRef .tc main_arg1) := W3_of_ne m ρ c main_arg1 (by decide)
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := StableHlo.after_of_writes_sub hostOps0 _ hostOps0_writes (by decide)
    _ = m ((c : Thread nD τ).loc main_arg1) := rfl

theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := StableHlo.after_of_writes_sub hostOps3 _ hostOps3_writes (by decide)
    _ = W4 m ρ c (Proc.devRef .tc main_arg2) := (W5_arr m ρ c 1).trans (((dat2 (V4 m ρ) c).arrAt_in 1 rfl _).trans (A_eq2 (V4 m ρ) c 1))
    _ = W3 m ρ c (Proc.devRef .tc main_arg2) := StableHlo.after_of_writes_sub hostOps2 _ hostOps2_writes (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := StableHlo.after_of_writes_sub hostOps3 _ hostOps3_writes (by decide)
    _ = W4 m ρ c (Proc.devRef .tc main_arg3) := W5_of_ne m ρ c main_arg3 (by decide)
    _ = W3 m ρ c (Proc.devRef .tc main_arg3) := StableHlo.after_of_writes_sub hostOps2 _ hostOps2_writes (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

/-! ## The proof data family and the thread state -/

abbrev adm' : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm' p) c
  | ⟨0, _⟩ => fun c => dat0 (V1 m ρ) c
  | ⟨1, _⟩ => fun c => dat1 (V2 m ρ) c
  | ⟨2, _⟩ => fun c => dat2 (V4 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- The q/k/v projection over the thread state: entered from every unscoped buffer at `W1`, left at `W2`. -/
def reg0 : Pipeline.RegionSeg (pcfgs (F := F)) adm' (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm' (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention core over the thread state: entered from every unscoped buffer at `W2`, left at `W3`; the projected
    array's share dealt among its three reading windows at entry and joined again at exit. -/
def reg1 : Pipeline.RegionSeg (pcfgs (F := F)) adm' (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit : (unscopedBufs (Ix := Unit) (Name := ℕ) (U := UR sig nD τ) (Lvl := ℕ) c (V2 m ρ c) : sProp 𝕄)
        ⊢ iprop((pdats m ρ 1 c).arrays ((pdats m ρ 1 c).arrAt · 0)
          ∗ Pipeline.unscopedRest (Ix := Unit) (Name := ℕ) (U := UR sig nD τ) (Lvl := ℕ) spec1 c (V2 m ρ c)) :=
      entry1 (F := F) (V2 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N)
          ∗ Pipeline.unscopedRest (Ix := Unit) (Name := ℕ) (U := UR sig nD τ) (Lvl := ℕ) spec1 c (V2 m ρ c))
        ⊢ (unscopedBufs (Ix := Unit) (Name := ℕ) (U := UR sig nD τ) (Lvl := ℕ) c (V3 m ρ c) : sProp 𝕄) :=
      exit1 (F := F) (V2 m ρ) (V3 m ρ) c (W3_out m ρ c) (fun b hb => W3_of_ne m ρ c b hb)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The output projection over the thread state: entered from every unscoped buffer at `W4`, left at `W5`. -/
def reg2 : Pipeline.RegionSeg (pcfgs (F := F)) adm' (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm' (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm' (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm' (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ),
    .host (hseg hostOps3 hostOps3_sub hostOps3_fresh (W5 m ρ)) ]

theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final state holds each unscoped buffer at the last boundary's contents: the result array at `W6`, and each
    argument array as launched. -/
theorem run_main : θ_run defs (onTc (τ := τ) (main (F := F))) ⟨m, fun _ => 0, ρ⟩ (fun r => ∀ c : Dev nD,
      r.2.mem ((c.tc : Thread nD τ).loc main_v5) = W6 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm' (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      show iprop(StableHlo.held (c : Thread nD τ) (Pipeline.ucRefs τ sig) (W6 m ρ c) ∗ R c)
        ⊢ iprop(Tₙ m ρ c ∗ ∃ W, owes (c : Thread nD τ) (0 : CellTallies nD τ sig Unit) W)
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v5 (by decide)),
        (h c _ (mem_uc main_arg0 (by decide))).trans (W6_main_arg0 m ρ c),
        (h c _ (mem_uc main_arg1 (by decide))).trans (W6_main_arg1 m ρ c),
        (h c _ (mem_uc main_arg2 (by decide))).trans (W6_main_arg2 m ρ c),
        (h c _ (mem_uc main_arg3 (by decide))).trans (W6_main_arg3 m ρ c)⟩)

end Cert.Kernel.Hand

end
-- ==== Proof.KernelIdealRegion0.lean ====
/-
  Pallas call 0 of the program (the q/k/v projection: a 512-row block of the activations against the whole weight), at the buffer contents `V` the region is entered with: each window's block
  at a grid point, what the kernel body leaves in the output window's staging buffer as a function of the input
  blocks, the body's triple (every load reads the whole block, the one store overwrites the whole output block), and
  the proof data and body obligation the pipeline rule takes. Stated at any float instance.
-/
import proofs.«123587_j84585085927925_2_alg».proof.Proof.Gen.KernelIdeal.Launch
import proofs.«123587_j84585085927925_2_alg».proof.Proof.Gen.KernelIdeal.Skeleton
import proofs.«123587_j84585085927925_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: an unfetched
    window's block index has not moved since the point that fetched it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: an unfetched
    window's block index has not moved since the point that fetched it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store go through the whole block -/

abbrev r0_0 : Rect S512x768 := Rect.unit (s := S512x768) ![0, 0] S512x768.size inb_S512x768_S512x768_0_0
abbrev r0_1 : Rect S2304x768 := Rect.unit (s := S2304x768) ![0, 0] S2304x768.size inb_S2304x768_S2304x768_0_0
abbrev r0_2 : Rect S512x2304 := Rect.unit (s := S512x2304) ![0, 0] S512x2304.size inb_S512x2304_S512x2304_0_0

/-- What the body leaves in the output window's staging buffer, from the input windows' blocks: its one store. -/
def out0_2 (x0 : Vec F S512x768 .f32) (x1 : Vec F S2304x768 .f32) : Vec F S512x2304 .f32 :=
  View.canon [⟨r0_2, k0_pay1 (View.ld x0 r0_0) (View.ld x1 r0_1)⟩]

/-- The store covers the buffer. -/
theorem cover0_2 (p0 : Vec F S512x2304 .f32) (y : S512x2304.Idx) :
    ∃ pc ∈ ([⟨r0_2, p0⟩] : List (View.Piece (Elt F) S512x2304 .f32)), y ∈ pc.1.set :=
  View.cover_of_tiled [⟨r0_2, p0⟩] S512x2304.size (by rfl) y

/-! ## The body's triple -/

set_option maxHeartbeats 4000000 in
/-- The kernel body on whole staging memrefs, the inputs' at contents `xW` and the output's at anything, runs to the
    continuation holding the inputs' as they were and the output's at `out0_2` of the inputs'. -/
theorem sound_kernel0 (c : Dev nD) (E : Set ℕ) (i : grid0.Coords) (a0 : Memref sig .tc .vmem S512x768 .f32) (ha0 : a0.IsWhole) (a1 : Memref sig .tc .vmem S2304x768 .f32) (ha1 : a1.IsWhole) (a2 : Memref sig .tc .vmem S512x2304 .f32) (ha2 : a2.IsWhole)
    (x0 : Vec F S512x768 .f32) (x1 : Vec F S2304x768 .f32) (K : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1 ∗ owns (c : Thread nD τ) a2 fullShare (out0_2 x0 x1)) -∗ K ⟨⟩))
      ⊢ wp frame (wpE (defs₀ (F := F)) Variants.none c none) E (cc0__linear_resident_kernel i a0 ha0 a1 ha1 a2 ha2) K := by
  simp only [cc0__linear_resident_kernel_eq_skeleton]; unfold cc0__linear_resident_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them; after the body at point `t` each
    input's buffer at its block and the output's at `out0_2` of the input blocks; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KernelIdealRegion1.lean ====
/-
  Pallas call 1 of the program (the attention core: one batch and one pair of heads per grid point, its q, k and v blocks all read out of the one projected array), at the buffer contents `V` the region is entered with: each window's block
  at a grid point, what the kernel body leaves in the output window's staging buffer as a function of the input
  blocks, the body's triple (every load reads the whole block, the one store overwrites the whole output block), and
  the proof data and body obligation the pipeline rule takes. Stated at any float instance.
-/
import proofs.«123587_j84585085927925_2_alg».proof.Proof.Gen.KernelIdeal.Launch
import proofs.«123587_j84585085927925_2_alg».proof.Proof.Gen.KernelIdeal.Skeleton
import proofs.«123587_j84585085927925_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: an unfetched
    window's block index has not moved since the point that fetched it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: an unfetched
    window's block index has not moved since the point that fetched it. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not: an unfetched
    window's block index has not moved since the point that fetched it. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store go through the whole block -/

abbrev r1_0 : Rect S1024x128 := Rect.unit (s := S1024x128) ![0, 0] S1024x128.size inb_S1024x128_S1024x128_0_0
abbrev r1_1 : Rect S1024x128 := Rect.unit (s := S1024x128) ![0, 0] S1024x128.size inb_S1024x128_S1024x128_0_0
abbrev r1_2 : Rect S1024x128 := Rect.unit (s := S1024x128) ![0, 0] S1024x128.size inb_S1024x128_S1024x128_0_0
abbrev r1_3 : Rect S1024x128 := Rect.unit (s := S1024x128) ![0, 0] S1024x128.size inb_S1024x128_S1024x128_0_0

/-- What the body leaves in the output window's staging buffer, from the input windows' blocks: its one store. -/
def out1_3 (x0 : Vec F S1024x128 .f32) (x1 : Vec F S1024x128 .f32) (x2 : Vec F S1024x128 .f32) : Vec F S1024x128 .f32 :=
  View.canon [⟨r1_3, k1_pay1 (View.ld x0 r1_0) (View.ld x1 r1_1) (View.ld x2 r1_2)⟩]

/-- The store covers the buffer. -/
theorem cover1_3 (p0 : Vec F S1024x128 .f32) (y : S1024x128.Idx) :
    ∃ pc ∈ ([⟨r1_3, p0⟩] : List (View.Piece (Elt F) S1024x128 .f32)), y ∈ pc.1.set :=
  View.cover_of_tiled [⟨r1_3, p0⟩] S1024x128.size (by rfl) y

/-! ## The body's triple -/

set_option maxHeartbeats 4000000 in
/-- The kernel body on whole staging memrefs, the inputs' at contents `xW` and the output's at anything, runs to the
    continuation holding the inputs' as they were and the output's at `out1_3` of the inputs'. -/
theorem sound_kernel1 (c : Dev nD) (E : Set ℕ) (i : grid1.Coords) (a0 : Memref sig .tc .vmem S1024x128 .f32) (ha0 : a0.IsWhole) (a1 : Memref sig .tc .vmem S1024x128 .f32) (ha1 : a1.IsWhole) (a2 : Memref sig .tc .vmem S1024x128 .f32) (ha2 : a2.IsWhole) (a3 : Memref sig .tc .vmem S1024x128 .f32) (ha3 : a3.IsWhole)
    (x0 : Vec F S1024x128 .f32) (x1 : Vec F S1024x128 .f32) (x2 : Vec F S1024x128 .f32) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (out1_3 x0 x1 x2)) -∗ K ⟨⟩))
      ⊢ wp frame (wpE (defs₀ (F := F)) Variants.none c none) E (cc1__attn_kernel i a0 ha0 a1 ha1 a2 ha2 a3 ha3) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them; after the body at point `t` each
    input's buffer at its block and the output's at `out1_3` of the input blocks; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q w := match w with
    | ⟨0, _⟩ => fullShare.left
    | ⟨1, _⟩ => fullShare.right.left
    | ⟨2, _⟩ => fullShare.right.right
    | ⟨3, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KernelIdealShare1.lean ====
/-
  Pallas call 1 reads its q, k and v blocks out of ONE array (the projected activations) through three input windows,
  and writes a fourth. The pipeline holds each window's array at that window's own share, so at the region's entry the
  projected array's full share is dealt into three parts (a half, and two quarters), one per reading window, and at the
  exit the three parts — all still at the entry contents, an input window's array being never written — are joined
  back into the full share. The output array is held whole throughout and leaves at what the write-backs made of it.
-/
import proofs.«123587_j84585085927925_2_alg».proof.Proof.KernelIdealRegion1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A buffer's full share is a half and two quarters, at the same contents; -/
theorem split3 (ℓ : Loc nD τ sig) (f : ℓ.ty.Contents (Elt F)) :
    (ℓ ↦{fullShare} f : sProp 𝕄)
      ⊢ iprop((ℓ ↦{fullShare.left} f) ∗ (ℓ ↦{fullShare.right.left} f) ∗ ℓ ↦{fullShare.right.right} f) := by
  iintro H
  ihave H' := (pointsTo_share (PosShare.mem_left_op_right fullShare)).1 $$ H
  icases H' with ⟨Hl, Hr⟩
  isplitl [Hl]; · iexact Hl
  iapply (pointsTo_share (PosShare.mem_left_op_right fullShare.right)).1
  iexact Hr

/-- and the three parts join to the full share again. -/
theorem join3 (ℓ : Loc nD τ sig) (f : ℓ.ty.Contents (Elt F)) :
    iprop((ℓ ↦{fullShare.left} f) ∗ (ℓ ↦{fullShare.right.left} f) ∗ ℓ ↦{fullShare.right.right} f)
      ⊢ (ℓ ↦{fullShare} f : sProp 𝕄) := by
  iintro ⟨Hl, Hrl, Hrr⟩
  iapply (pointsTo_share (PosShare.mem_left_op_right fullShare)).2
  isplitl [Hl]; · iexact Hl
  iapply (pointsTo_share (PosShare.mem_left_op_right fullShare.right)).2
  isplitl [Hrl] <;> iassumption

/-- Pipeline 1's arrays at contents `G`, window by window: every array a whole buffer. -/
theorem arrays1_eq (c : Dev nD) (G : (w : Fin cfg1.W) → Buf (Elt F) ((cfg1.win w).arr.view.loc (c : Thread nD τ))) :
    (dat1 V c).arrays G
      = bigSep Finset.univ fun w : Fin 4 => (((c : Thread nD τ).loc (Pipeline.arrRef spec1 w)) ↦{(dat1 V c).share w} G w : sProp 𝕄) := by
  unfold Pipeline.Dat.arrays
  exact bigSep_congr fun w _ => by rw [(arr_whole1 w).set_eq_univ]

/-- The buffers behind pipeline 1's arrays: the projected array (three windows) and the output array. -/
theorem arrs1 : Finset.univ.image (Pipeline.arrRef spec1) = ({main_v1, main_v2} : Finset (Ref sig .tc)) := by decide
theorem arrs1_sub : ({main_v1, main_v2} : Finset (Ref sig .tc)) ⊆ Finset.univ.filter fun b : Ref sig .tc => ¬ b.isScoped := by decide

/-- ENTRY: the core's unscoped buffers at `V` are pipeline 1's arrays, each at its window's share and at the entry
    contents, and the buffers no window of it stages. -/
theorem entry1 (c : Dev nD) :
    (unscopedBufs (Ix := Unit) (Name := ℕ) (U := UR sig nD τ) (Lvl := ℕ) c (V c) : sProp 𝕄)
      ⊢ iprop((dat1 V c).arrays ((dat1 V c).arrAt · 0) ∗ Pipeline.unscopedRest spec1 c (V c)) := by
  classical
  unfold unscopedBufs Pipeline.unscopedRest
  rw [arrs1, bigSep_sdiff_split arrs1_sub, bigSep_insert (by decide), bigSep_singleton, arrays1_eq, bigSep_W1]
  refine BIClass.sep_mono ?_ .rfl
  show iprop((((c : Thread nD τ).loc main_v1) ↦{fullShare} V c main_v1) ∗ (((c : Thread nD τ).loc main_v2) ↦{fullShare} V c main_v2))
    ⊢ (iprop(((((c : Thread nD τ).loc main_v1) ↦{fullShare.left} V c main_v1))
        ∗ ((((c : Thread nD τ).loc main_v1) ↦{fullShare.right.left} V c main_v1))
        ∗ ((((c : Thread nD τ).loc main_v1) ↦{fullShare.right.right} V c main_v1))
        ∗ (((c : Thread nD τ).loc main_v2) ↦{fullShare} V c main_v2)) : sProp 𝕄)
  iintro ⟨H1, H2⟩
  ihave H1' := (split3 ((c : Thread nD τ).loc main_v1) (V c main_v1)) $$ H1
  icases H1' with ⟨Ha, Hb, Hc⟩
  isplitl [Ha]; · iexact Ha
  isplitl [Hb]; · iexact Hb
  isplitl [Hc]; · iexact Hc
  iexact H2

/-- EXIT: the arrays at what the pipeline leaves and the other buffers as entered are the core's unscoped buffers at
    any contents `V'` that have the output array at what the write-backs left and agree with `V` elsewhere. -/
theorem exit1 (V' : (c : Dev nD) → (b : Ref sig .tc) → Buf (Elt F) ((c : Thread nD τ).loc b)) (c : Dev nD)
    (hout : V' c main_v2 = (dat1 V c).arrAt 3 cfg1.N) (hrest : ∀ b : Ref sig .tc, b ≠ main_v2 → V' c b = V c b) :
    iprop((dat1 V c).arrays ((dat1 V c).arrAt · cfg1.N) ∗ Pipeline.unscopedRest spec1 c (V c))
      ⊢ (unscopedBufs (Ix := Unit) (Name := ℕ) (U := UR sig nD τ) (Lvl := ℕ) c (V' c) : sProp 𝕄) := by
  classical
  have h0 : (dat1 V c).arrAt 0 cfg1.N = V c main_v1 := ((dat1 V c).arrAt_in 0 rfl _).trans (A_eq1 V c 0)
  have h1 : (dat1 V c).arrAt 1 cfg1.N = V c main_v1 := ((dat1 V c).arrAt_in 1 rfl _).trans (A_eq1 V c 1)
  have h2 : (dat1 V c).arrAt 2 cfg1.N = V c main_v1 := ((dat1 V c).arrAt_in 2 rfl _).trans (A_eq1 V c 2)
  unfold unscopedBufs Pipeline.unscopedRest
  rw [arrs1, bigSep_sdiff_split arrs1_sub, bigSep_insert (by decide), bigSep_singleton, arrays1_eq, bigSep_W1]
  refine BIClass.sep_mono ?_ (Entails.of_eq (bigSep_congr fun b hb => by
    rw [hrest b (fun e => (Finset.mem_sdiff.mp hb).2 (by rw [e]; decide))]))
  rw [hrest main_v1 (by decide), hout]
  show (iprop(((((c : Thread nD τ).loc main_v1) ↦{fullShare.left} (dat1 V c).arrAt 0 cfg1.N))
        ∗ ((((c : Thread nD τ).loc main_v1) ↦{fullShare.right.left} (dat1 V c).arrAt 1 cfg1.N))
        ∗ ((((c : Thread nD τ).loc main_v1) ↦{fullShare.right.right} (dat1 V c).arrAt 2 cfg1.N))
        ∗ (((c : Thread nD τ).loc main_v2) ↦{fullShare} (dat1 V c).arrAt 3 cfg1.N)) : sProp 𝕄)
    ⊢ iprop((((c : Thread nD τ).loc main_v1) ↦{fullShare} V c main_v1) ∗ (((c : Thread nD τ).loc main_v2) ↦{fullShare} (dat1 V c).arrAt 3 cfg1.N))
  rw [h0, h1, h2]
  iintro ⟨Ha, Hb, Hc, H2⟩
  isplitr [H2]
  · iapply (join3 ((c : Thread nD τ).loc main_v1) (V c main_v1))
    isplitl [Ha]; · iexact Ha
    isplitl [Hb]; · iexact Hb
    iexact Hc
  iexact H2

end Cert.KernelIdeal.Hand

end
-- ==== Proof.KernelIdealRegion2.lean ====
/-
  Pallas call 2 of the program (the output projection: a 512-row block of the attention output against the whole weight, plus the bias row), at the buffer contents `V` the region is entered with: each window's block
  at a grid point, what the kernel body leaves in the output window's staging buffer as a function of the input
  blocks, the body's triple (every load reads the whole block, the one store overwrites the whole output block), and
  the proof data and body obligation the pipeline rule takes. Stated at any float instance.
-/
import proofs.«123587_j84585085927925_2_alg».proof.Proof.Gen.KernelIdeal.Launch
import proofs.«123587_j84585085927925_2_alg».proof.Proof.Gen.KernelIdeal.Skeleton
import proofs.«123587_j84585085927925_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not: an unfetched
    window's block index has not moved since the point that fetched it. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not: an unfetched
    window's block index has not moved since the point that fetched it. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not: an unfetched
    window's block index has not moved since the point that fetched it. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the one store go through the whole block -/

abbrev r2_0 : Rect S512x768 := Rect.unit (s := S512x768) ![0, 0] S512x768.size inb_S512x768_S512x768_0_0
abbrev r2_1 : Rect S768x768 := Rect.unit (s := S768x768) ![0, 0] S768x768.size inb_S768x768_S768x768_0_0
abbrev r2_2 : Rect S1x768 := Rect.unit (s := S1x768) ![0, 0] S1x768.size inb_S1x768_S1x768_0_0
abbrev r2_3 : Rect S512x768 := Rect.unit (s := S512x768) ![0, 0] S512x768.size inb_S512x768_S512x768_0_0

/-- What the body leaves in the output window's staging buffer, from the input windows' blocks: its one store. -/
def out2_3 (x0 : Vec F S512x768 .f32) (x1 : Vec F S768x768 .f32) (x2 : Vec F S1x768 .f32) : Vec F S512x768 .f32 :=
  View.canon [⟨r2_3, k2_pay1 (View.ld x0 r2_0) (View.ld x1 r2_1) (View.ld x2 r2_2)⟩]

/-- The store covers the buffer. -/
theorem cover2_3 (p0 : Vec F S512x768 .f32) (y : S512x768.Idx) :
    ∃ pc ∈ ([⟨r2_3, p0⟩] : List (View.Piece (Elt F) S512x768 .f32)), y ∈ pc.1.set :=
  View.cover_of_tiled [⟨r2_3, p0⟩] S512x768.size (by rfl) y

/-! ## The body's triple -/

set_option maxHeartbeats 4000000 in
/-- The kernel body on whole staging memrefs, the inputs' at contents `xW` and the output's at anything, runs to the
    continuation holding the inputs' as they were and the output's at `out2_3` of the inputs'. -/
theorem sound_kernel2 (c : Dev nD) (E : Set ℕ) (i : grid2.Coords) (a0 : Memref sig .tc .vmem S512x768 .f32) (ha0 : a0.IsWhole) (a1 : Memref sig .tc .vmem S768x768 .f32) (ha1 : a1.IsWhole) (a2 : Memref sig .tc .vmem S1x768 .f32) (ha2 : a2.IsWhole) (a3 : Memref sig .tc .vmem S512x768 .f32) (ha3 : a3.IsWhole)
    (x0 : Vec F S512x768 .f32) (x1 : Vec F S768x768 .f32) (x2 : Vec F S1x768 .f32) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (out2_3 x0 x1 x2)) -∗ K ⟨⟩))
      ⊢ wp frame (wpE (defs₀ (F := F)) Variants.none c none) E (cc2__linear_bias_resident_kernel i a0 ha0 a1 ha1 a2 ha2 a3 ha3) K := by
  simp only [cc2__linear_bias_resident_kernel_eq_skeleton]; unfold cc2__linear_bias_resident_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of pipeline 2 on core `c`: the arrays as the region finds them; after the body at point `t` each
    input's buffer at its block and the output's at `out2_3` of the input blocks; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KernelIdealRun.lean ====
/-
  The program's run from launch to return, at any float instance. @main is six segments: a reshape of the activations,
  the q/k/v projection, the attention core, a reshape of the bias, the output projection, and a reshape of the result.
  The buffer contents at each boundary are a fold from the launch memory: a host stretch applies its operations; a
  pallas call leaves its output array at what its grid points' write-backs made of it and every other buffer as
  entered. Each pallas call is a region segment over the thread state "every unscoped buffer at the boundary's
  contents, the generator register at some state, nothing owed": its arrays are taken out of the held buffers at
  entry and put back at exit. The run ends with every unscoped buffer at the last boundary's contents; read at the
  argument arrays the fold walks back to the launch memory, no segment writing an argument.
-/
import proofs.«123587_j84585085927925_2_alg».proof.Proof.KernelIdealRegion0
import proofs.«123587_j84585085927925_2_alg».proof.Proof.KernelIdealShare1
import proofs.«123587_j84585085927925_2_alg».proof.Proof.KernelIdealRegion2
import proofs.«123587_j84585085927925_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the reshape of the activations (the projection's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the attention core's exit: its output array at what the pipeline leaves, every other buffer (the projected
    array it reads through three windows among them) as entered. -/
def W3 (c : Dev nD) : Valuation τ sig (Elt F) :=
  Function.update (W2 m ρ c) (Proc.devRef .tc main_v2) ((dat1 (V2 m ρ) c).arrAt 3 cfg1.N)
theorem W3_out (c : Dev nD) : W3 m ρ c (Proc.devRef .tc main_v2) = (dat1 (V2 m ρ) c).arrAt 3 cfg1.N := by
  unfold W3; exact Function.update_self ..
theorem W3_of_ne (c : Dev nD) (b : Ref sig .tc) (hb : b ≠ main_v2) :
    W3 m ρ c (Proc.devRef .tc b) = W2 m ρ c (Proc.devRef .tc b) := by
  unfold W3; exact Function.update_of_ne (StableHlo.devRef_ne_of_ne hb) _ _
abbrev V3 : (c : Dev nD) → (b : Ref sig .tc) → Buf (Elt F) ((c : Thread nD τ).loc b) := fun c b => W3 m ρ c b

/-- After the reshape of the bias (the output projection's entry). -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b
/-- At the output projection's exit. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)
/-- After the reshape of the result: the return. -/
abbrev W6 : Dev nD → Valuation τ sig (Elt F) := fun c => StableHlo.after hostOps3 (W5 m ρ c)

/-! ### The arguments end as launched -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := StableHlo.after_of_writes_sub hostOps3 _ hostOps3_writes (by decide)
    _ = W4 m ρ c (Proc.devRef .tc main_arg0) := W5_of_ne m ρ c main_arg0 (by decide)
    _ = W3 m ρ c (Proc.devRef .tc main_arg0) := StableHlo.after_of_writes_sub hostOps2 _ hostOps2_writes (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := StableHlo.after_of_writes_sub hostOps3 _ hostOps3_writes (by decide)
    _ = W4 m ρ c (Proc.devRef .tc main_arg1) := W5_of_ne m ρ c main_arg1 (by decide)
    _ = W3 m ρ c (Proc.devRef .tc main_arg1) := StableHlo.after_of_writes_sub hostOps2 _ hostOps2_writes (by decide)
    _ = W2 m ρ c (Proc.devRef .tc main_arg1) := W3_of_ne m ρ c main_arg1 (by decide)
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := StableHlo.after_of_writes_sub hostOps0 _ hostOps0_writes (by decide)
    _ = m ((c : Thread nD τ).loc main_arg1) := rfl

theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := StableHlo.after_of_writes_sub hostOps3 _ hostOps3_writes (by decide)
    _ = W4 m ρ c (Proc.devRef .tc main_arg2) := (W5_arr m ρ c 1).trans (((dat2 (V4 m ρ) c).arrAt_in 1 rfl _).trans (A_eq2 (V4 m ρ) c 1))
    _ = W3 m ρ c (Proc.devRef .tc main_arg2) := StableHlo.after_of_writes_sub hostOps2 _ hostOps2_writes (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := StableHlo.after_of_writes_sub hostOps3 _ hostOps3_writes (by decide)
    _ = W4 m ρ c (Proc.devRef .tc main_arg3) := W5_of_ne m ρ c main_arg3 (by decide)
    _ = W3 m ρ c (Proc.devRef .tc main_arg3) := StableHlo.after_of_writes_sub hostOps2 _ hostOps2_writes (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

/-! ## The proof data family and the thread state -/

abbrev adm' : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm' p) c
  | ⟨0, _⟩ => fun c => dat0 (V1 m ρ) c
  | ⟨1, _⟩ => fun c => dat1 (V2 m ρ) c
  | ⟨2, _⟩ => fun c => dat2 (V4 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- The q/k/v projection over the thread state: entered from every unscoped buffer at `W1`, left at `W2`. -/
def reg0 : Pipeline.RegionSeg (pcfgs (F := F)) adm' (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm' (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention core over the thread state: entered from every unscoped buffer at `W2`, left at `W3`; the projected
    array's share dealt among its three reading windows at entry and joined again at exit. -/
def reg1 : Pipeline.RegionSeg (pcfgs (F := F)) adm' (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit : (unscopedBufs (Ix := Unit) (Name := ℕ) (U := UR sig nD τ) (Lvl := ℕ) c (V2 m ρ c) : sProp 𝕄)
        ⊢ iprop((pdats m ρ 1 c).arrays ((pdats m ρ 1 c).arrAt · 0)
          ∗ Pipeline.unscopedRest (Ix := Unit) (Name := ℕ) (U := UR sig nD τ) (Lvl := ℕ) spec1 c (V2 m ρ c)) :=
      entry1 (F := F) (V2 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N)
          ∗ Pipeline.unscopedRest (Ix := Unit) (Name := ℕ) (U := UR sig nD τ) (Lvl := ℕ) spec1 c (V2 m ρ c))
        ⊢ (unscopedBufs (Ix := Unit) (Name := ℕ) (U := UR sig nD τ) (Lvl := ℕ) c (V3 m ρ c) : sProp 𝕄) :=
      exit1 (F := F) (V2 m ρ) (V3 m ρ) c (W3_out m ρ c) (fun b hb => W3_of_ne m ρ c b hb)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The output projection over the thread state: entered from every unscoped buffer at `W4`, left at `W5`. -/
def reg2 : Pipeline.RegionSeg (pcfgs (F := F)) adm' (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm' (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm' (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm' (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ),
    .host (hseg hostOps3 hostOps3_sub hostOps3_fresh (W5 m ρ)) ]

theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final state holds each unscoped buffer at the last boundary's contents: the result array at `W6`, and each
    argument array as launched. -/
theorem run_main : θ_run defs (onTc (τ := τ) (main (F := F))) ⟨m, fun _ => 0, ρ⟩ (fun r => ∀ c : Dev nD,
      r.2.mem ((c.tc : Thread nD τ).loc main_v5) = W6 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm' (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      show iprop(StableHlo.held (c : Thread nD τ) (Pipeline.ucRefs τ sig) (W6 m ρ c) ∗ R c)
        ⊢ iprop(Tₙ m ρ c ∗ ∃ W, owes (c : Thread nD τ) (0 : CellTallies nD τ sig Unit) W)
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v5 (by decide)),
        (h c _ (mem_uc main_arg0 (by decide))).trans (W6_main_arg0 m ρ c),
        (h c _ (mem_uc main_arg1 (by decide))).trans (W6_main_arg1 m ρ c),
        (h c _ (mem_uc main_arg2 (by decide))).trans (W6_main_arg2 m ρ c),
        (h c _ (mem_uc main_arg3 (by decide))).trans (W6_main_arg3 m ρ c)⟩)

end Cert.KernelIdeal.Hand

end
-- ==== Proof.KernelIdealValue0.lean ====
/-
  The q/k/v projection's output array after its sixteen grid points, on the extended reals: row `r`, column `e` holds
  the contraction of row `r` of the activations with row `e` of the weight. Point `t` writes back rows 512·t … 512·t+511,
  reading the same rows of the activations and the whole weight; the sixteen row blocks tile the array.
-/
import proofs.«123587_j84585085927925_2_alg».proof.Proof.KernelIdealRegion0
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)
open scoped BigOperators

-- the TensorCore's buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The projected array as a function of the activations `a : [8192, 768]` and the weight `w : [2304, 768]`. -/
def G0 (a : S8192x768.Idx → EReal) (w : S2304x768.Idx → EReal) : S8192x2304.Idx → EReal :=
  fun i => ∑ k : Fin 768, a (ix2 (i 0) k) * w (ix2 (i 1) k)

/-- The printed index maps over the grid: the activations' and the output's row block is the point, every other block index zero. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- An index of the array is in point `t`'s block iff each coordinate is in the block's range on its axis. -/
theorem mem_blk0 (t : Fin cfg0.N) (i : S8192x2304.Idx) :
    i ∈ ((cfg0.win 2).blk t).view.set ↔ ∀ a : Fin 2, win0_2.index t a * S512x2304.size a ≤ (i a).val ∧ (i a).val < win0_2.index t a * S512x2304.size a + S512x2304.size a := by
  show i ∈ ((View.whole main_v1).slice (win0_2.rect t)).set ↔ _
  rw [View.set_slice_whole, Rect.mem_set_unit]
  exact Iff.rfl

/-- Every index is in some point's block: row `r` is in block `r / 512`. -/
theorem cover0 (i : S8192x2304.Idx) : ∃ t : Fin cfg0.N, (cfg0.win 2).flush t = true ∧ i ∈ ((cfg0.win 2).blk t).view.set := by
  have hi0 : (i 0).val < 8192 := (i 0).isLt
  have hi1 : (i 1).val < 2304 := (i 1).isLt
  let t : Fin cfg0.N := ⟨(i 0).val / 512, by show (i 0).val / 512 < grid0.N; rw [N_0]; omega⟩
  obtain ⟨e0, e1, e2, e3, e4, e5⟩ := idx_facts0 t
  have ht : t.val = (i 0).val / 512 := rfl
  refine ⟨t, flush0_2 t, ?_⟩
  rw [mem_blk0]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 2304 ≤ (i 1).val ∧ (i 1).val < win0_2.index t (1 : Fin 2) * 2304 + 2304; omega

section
variable (hpay : ∀ (x : Vec Ideal S512x768 .f32) (w : Vec Ideal S2304x768 .f32) (p : Fin 512) (e : Fin 2304),
  k0_pay1 (F := Ideal) x w (ix2 p e) = ∑ k : Fin 768, x (ix2 p k) * w (ix2 e k))
include hpay

/-- The body's stored value at any index of the block. -/
theorem pay0_j (x : Vec Ideal S512x768 .f32) (w : Vec Ideal S2304x768 .f32) (j : S512x2304.Idx) :
    k0_pay1 (F := Ideal) x w j = ∑ k : Fin 768, x (ix2 (j 0) k) * w (ix2 (j 1) k) := by
  conv_lhs => rw [eq_ix2 j]
  exact hpay x w (j 0) (j 1)

/-- What point `t` writes back is block `t` of `G0` of the arrays as the region finds them. -/
theorem flushed0_eq (c : Dev nD) (t : Fin cfg0.N) :
    (dat0 V c).flushed 2 t = ((cfg0.win 2).blk t).view.read (Elt Ideal) (G0 (V c main_v0) (V c main_arg1)) := by
  show (cfg0.win 2).cut (grid0.coords t) ((dat0 V c).after 2 t) = _
  rw [after0_2]
  unfold out0_2
  rw [View.canon_unit_zero hz]
  simp only [View.ld_unit_zero (S := S512x768) hz, View.ld_unit_zero (S := S2304x768) hz]
  obtain ⟨e0, e1, e2, e3, e4, e5⟩ := idx_facts0 t
  funext j
  refine (pay0_j hpay (iblk0 V c 0 t) (iblk0 V c 1 t) j).trans ?_
  let A : S8192x768.Idx → EReal := V c main_v0
  let Wt : S2304x768.Idx → EReal := V c main_arg1
  show (∑ k : Fin 768, A (((cfg0.win 0).blk t).view.emb (ix2 (j 0) k)) * Wt (((cfg0.win 1).blk t).view.emb (ix2 (j 1) k)))
    = ∑ k : Fin 768, A (ix2 ((((cfg0.win 2).blk t).view.emb j) 0) k) * Wt (ix2 ((((cfg0.win 2).blk t).view.emb j) 1) k)
  refine Finset.sum_congr rfl fun k _ => ?_
  have h0 : ((cfg0.win 0).blk t).view.emb (ix2 (j 0) k) = ix2 ((((cfg0.win 2).blk t).view.emb j) 0) k := by
    funext a; apply Fin.ext
    match a with
    | ⟨0, _⟩ => show win0_0.index t (0 : Fin 2) * 512 + 1 * (j 0).val = win0_2.index t (0 : Fin 2) * 512 + 1 * (j 0).val; omega
    | ⟨1, _⟩ => show win0_0.index t (1 : Fin 2) * 768 + 1 * k.val = k.val; omega
  have h1 : ((cfg0.win 1).blk t).view.emb (ix2 (j 1) k) = ix2 ((((cfg0.win 2).blk t).view.emb j) 1) k := by
    funext a; apply Fin.ext
    match a with
    | ⟨0, _⟩ => show win0_1.index t (0 : Fin 2) * 2304 + 1 * (j 1).val = win0_2.index t (1 : Fin 2) * 2304 + 1 * (j 1).val; omega
    | ⟨1, _⟩ => show win0_1.index t (1 : Fin 2) * 768 + 1 * k.val = k.val; omega
  rw [h0, h1]
  rfl

/-- The projected array after the region. -/
theorem final0 (c : Dev nD) : (dat0 V c).arrAt 2 cfg0.N = G0 (V c main_v0) (V c main_arg1) :=
  (dat0 V c).arrAt_eq_of_cover 2 (G0 (V c main_v0) (V c main_arg1)) (fun t _ => flushed0_eq V hpay c t) cover0

end

end Cert.KernelIdeal.Val

end
-- ==== Proof.AttnSpec.lean ====
/-
  What both programs compute, as ONE function of the four argument arrays, index by index, on the extended reals.

  With x : [8, 1024, 768], w_qkv : [2304, 768], w_fc : [768, 768], b_fc : [768]:

    proj b n e      = ∑ k, x[b, n, k] · w_qkv[e, k]                         (e < 2304: the q, k and v columns side by side)
    score b h i j   = 8 · ∑ d, proj b i (h·64 + d) · proj b j (768 + h·64 + d)      (head h of 12, 64 columns each)
    heads b h i d   = ∑ j, score b h i j · proj b j (1536 + h·64 + d)
    merged b n k    = heads b (k / 64) n (k % 64)                           (the heads laid side by side again)
    result b n e    = (∑ k, merged b n k · w_fc[e, k]) + b_fc[e]

  The scale 8 is kept as the printed f32 word; the module that needs its value reads it there. This module
  imports no program: the shapes are literal.
-/
import Idealize.ShloMosaic.PureOps.Ideal
import Idealize.ShloMosaic.Lib.ValueIdx

noncomputable section

namespace Cert.AttnSpec

open Idealize.ShloMosaic Idealize.ShloMosaic.ValueIdx
open scoped BigOperators

/-- The shapes of the four arguments and of the result. -/
abbrev SX : Shape := ⟨3, ![8, 1024, 768]⟩
abbrev SWqkv : Shape := ⟨2, ![2304, 768]⟩
abbrev SWfc : Shape := ⟨2, ![768, 768]⟩
abbrev SBias : Shape := ⟨1, ![768]⟩

/-- The scale, 8.0 as an f32 word. -/
def scale : EReal := Ideal.ofBits .f32 0x41000000#32

/-- Column `h·64 + d` of the q section, and the same column of the k and of the v section. -/
def colQ (h : Fin 12) (d : Fin 64) : Fin 2304 := ⟨h.val * 64 + d.val, by have := h.isLt; have := d.isLt; omega⟩
def colK (h : Fin 12) (d : Fin 64) : Fin 2304 := ⟨768 + (h.val * 64 + d.val), by have := h.isLt; have := d.isLt; omega⟩
def colV (h : Fin 12) (d : Fin 64) : Fin 2304 := ⟨1536 + (h.val * 64 + d.val), by have := h.isLt; have := d.isLt; omega⟩

/-- The head and the column inside the head of a merged column `k < 768`. -/
def headOf (k : Fin 768) : Fin 12 := ⟨k.val / 64, by have := k.isLt; omega⟩
def laneOf (k : Fin 768) : Fin 64 := ⟨k.val % 64, by omega⟩

variable (x : SX.Idx → EReal) (wqkv : SWqkv.Idx → EReal) (wfc : SWfc.Idx → EReal) (bfc : SBias.Idx → EReal)

/-- The q/k/v projection: row `(b, n)` of `x` against row `e` of `w_qkv`. -/
def proj (b : Fin 8) (n : Fin 1024) (e : Fin 2304) : EReal :=
  ∑ k : Fin 768, x (ix3 b n k) * wqkv (ix2 e k)

/-- The scaled score of query row `i` against key row `j` in head `h` of batch `b`. -/
def score (b : Fin 8) (h : Fin 12) (i j : Fin 1024) : EReal :=
  scale * ∑ d : Fin 64, proj x wqkv b i (colQ h d) * proj x wqkv b j (colK h d)

/-- The scores against the values: no softmax between them. -/
def heads (b : Fin 8) (h : Fin 12) (i : Fin 1024) (d : Fin 64) : EReal :=
  ∑ j : Fin 1024, score x wqkv b h i j * proj x wqkv b j (colV h d)

/-- The heads side by side: column `k` is lane `k % 64` of head `k / 64`. -/
def merged (b : Fin 8) (n : Fin 1024) (k : Fin 768) : EReal :=
  heads x wqkv b (headOf k) n (laneOf k)

/-- The output projection and its bias. -/
def result (b : Fin 8) (n : Fin 1024) (e : Fin 768) : EReal :=
  (∑ k : Fin 768, merged x wqkv b n k * wfc (ix2 e k)) + bfc (ix1 e)

/-- The whole result array. -/
def G : SX.Idx → EReal := fun i => result x wqkv wfc bfc (i 0) (i 1) (i 2)

theorem G_ix3 (b : Fin 8) (n : Fin 1024) (e : Fin 768) :
    G x wqkv wfc bfc (ix3 b n e) = result x wqkv wfc bfc b n e := rfl

end Cert.AttnSpec

end
-- ==== Proof.KernelIdealValue1.lean ====
/-
  The attention core's output array after its 8 × 6 grid points, on the extended reals. Row `r` belongs to batch
  `r / 1024`; column `c` to head `c / 64`. The entry at `(r, c)` is the sum over the batch's 1024 rows `j` of the scaled
  score of row `r` against row `j` in that head — the q columns of the head at row `r` against its k columns at row
  `j` — times the v entry at row `j`, column `1536 + c`. Point `(b, jb)` writes back rows 1024·b … and columns 128·jb …
  (two heads), reading out of the projected array the same rows at column blocks `jb`, `6 + jb` and `12 + jb`.
-/
import proofs.«123587_j84585085927925_2_alg».proof.Proof.KernelIdealRegion1
import proofs.«123587_j84585085927925_2_alg».proof.Proof.AttnSpec
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)
open scoped BigOperators

-- the TensorCore's buffer contents when the region is entered
variable (V : (c : Dev nD) → (b : Ref sig .tc) → Buf (Elt Ideal) ((c : Thread nD τ).loc b))

theorem hz1 : (![0, 0] : Fin 2 → Nat) = fun _ => 0 := funext fun a => by fin_cases a <;> rfl

/-- Lane `d` of half `g` of a 128-lane block. -/
def lane (g : Fin 2) (d : Fin 64) : Fin 128 := ⟨g.val * 64 + d.val, by have := g.isLt; have := d.isLt; omega⟩

/-- Row `j` of the batch row `r` belongs to. -/
def rowOf (r : Fin 8192) (j : Fin 1024) : Fin 8192 := ⟨r.val / 1024 * 1024 + j.val, by have := r.isLt; have := j.isLt; omega⟩
/-- The q column, the k column and the v column that output column `c` reads: lane `d` of `c`'s head in the q and in the
    k section, and column `c` itself in the v section. -/
def qcol (c : Fin 768) (d : Fin 64) : Fin 2304 := ⟨c.val / 64 * 64 + d.val, by have := c.isLt; have := d.isLt; omega⟩
def kcol (c : Fin 768) (d : Fin 64) : Fin 2304 := ⟨768 + (c.val / 64 * 64 + d.val), by have := c.isLt; have := d.isLt; omega⟩
def vcol (c : Fin 768) : Fin 2304 := ⟨1536 + c.val, by have := c.isLt; omega⟩

/-- The attention output as a function of the projected array `p : [8192, 2304]`. -/
def G1 (p : S8192x2304.Idx → EReal) : S8192x768.Idx → EReal :=
  fun i => ∑ j : Fin 1024, (Cert.AttnSpec.scale * ∑ d : Fin 64, p (ix2 (i 0) (qcol (i 1) d)) * p (ix2 (rowOf (i 0) j) (kcol (i 1) d)))
    * p (ix2 (rowOf (i 0) j) (vcol (i 1)))

/-- The printed index maps over the grid: the three reading windows sit on the output's row block, at its column block
    shifted by 0, 6 and 12; -/
theorem idx_facts1 : ∀ t : Fin cfg1.N, win1_0.index t (0 : Fin 2) = win1_3.index t (0 : Fin 2) ∧ win1_0.index t (1 : Fin 2) = win1_3.index t (1 : Fin 2)
    ∧ win1_1.index t (0 : Fin 2) = win1_3.index t (0 : Fin 2) ∧ win1_1.index t (1 : Fin 2) = win1_3.index t (1 : Fin 2) + 6
    ∧ win1_2.index t (0 : Fin 2) = win1_3.index t (0 : Fin 2) ∧ win1_2.index t (1 : Fin 2) = win1_3.index t (1 : Fin 2) + 12
    ∧ win1_3.index t (0 : Fin 2) ≤ 7 ∧ win1_3.index t (1 : Fin 2) ≤ 5 :=
  (by decide +kernel : ∀ t : Fin grid1.N, _)

/-- and every block of the output is some point's. -/
theorem idx_onto1 : ∀ (q0 : Fin 8) (q1 : Fin 6), ∃ t : Fin cfg1.N, win1_3.index t = ![q0.val, q1.val] :=
  (by decide +kernel : ∀ (q0 : Fin 8) (q1 : Fin 6), ∃ t : Fin grid1.N, win1_3.index t = ![q0.val, q1.val])

/-- An index of the array is in point `t`'s block iff each coordinate is in the block's range on its axis. -/
theorem mem_blk1 (t : Fin cfg1.N) (i : S8192x768.Idx) :
    i ∈ ((cfg1.win 3).blk t).view.set ↔ ∀ a : Fin 2, win1_3.index t a * S1024x128.size a ≤ (i a).val ∧ (i a).val < win1_3.index t a * S1024x128.size a + S1024x128.size a := by
  show i ∈ ((View.whole main_v2).slice (win1_3.rect t)).set ↔ _
  rw [View.set_slice_whole, Rect.mem_set_unit]
  exact Iff.rfl

/-- Every index is in some point's block: row `r`, column `c` is in block `(r / 1024, c / 128)`. -/
theorem cover1 (i : S8192x768.Idx) : ∃ t : Fin cfg1.N, (cfg1.win 3).flush t = true ∧ i ∈ ((cfg1.win 3).blk t).view.set := by
  have hi0 : (i 0).val < 8192 := (i 0).isLt
  have hi1 : (i 1).val < 768 := (i 1).isLt
  obtain ⟨t, ht⟩ := idx_onto1 ⟨(i 0).val / 1024, by omega⟩ ⟨(i 1).val / 128, by omega⟩
  have q0 : win1_3.index t (0 : Fin 2) = (i 0).val / 1024 := congrFun ht 0
  have q1 : win1_3.index t (1 : Fin 2) = (i 1).val / 128 := congrFun ht 1
  refine ⟨t, flush1_3 t, ?_⟩
  rw [mem_blk1]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 128 ≤ (i 1).val ∧ (i 1).val < win1_3.index t (1 : Fin 2) * 128 + 128; omega

section
variable (hpay : ∀ (q k v : Vec Ideal S1024x128 .f32) (i : Fin 1024) (g : Fin 2) (d : Fin 64),
  k1_pay1 (F := Ideal) q k v (ix2 i (lane g d))
    = ∑ j : Fin 1024, (Cert.AttnSpec.scale * ∑ d' : Fin 64, q (ix2 i (lane g d')) * k (ix2 j (lane g d'))) * v (ix2 j (lane g d)))
include hpay

/-- The half a lane of the block is in. -/
def halfOf (l : Fin 128) : Fin 2 := ⟨l.val / 64, by have := l.isLt; omega⟩

/-- The body's stored value at row `a`, lane `l` of the block: the lane's half picks the head. -/
theorem pay1_al (q k v : Vec Ideal S1024x128 .f32) (a : Fin 1024) (l : Fin 128) :
    k1_pay1 (F := Ideal) q k v (ix2 a l)
      = ∑ jj : Fin 1024, (Cert.AttnSpec.scale * ∑ d' : Fin 64, q (ix2 a (lane (halfOf l) d')) * k (ix2 jj (lane (halfOf l) d'))) * v (ix2 jj l) := by
  have hlt : l.val % 64 < 64 := Nat.mod_lt _ (by decide)
  have hl : lane (halfOf l) ⟨l.val % 64, hlt⟩ = l := by
    apply Fin.ext; show l.val / 64 * 64 + l.val % 64 = l.val; omega
  have h := hpay q k v a (halfOf l) ⟨l.val % 64, hlt⟩
  rw [hl] at h
  exact h

/-- The same at any index of the block. -/
theorem pay1_j (q k v : Vec Ideal S1024x128 .f32) (j : S1024x128.Idx) :
    k1_pay1 (F := Ideal) q k v j
      = ∑ jj : Fin 1024, (Cert.AttnSpec.scale * ∑ d' : Fin 64, q (ix2 (j 0) (lane (halfOf (j 1)) d')) * k (ix2 jj (lane (halfOf (j 1)) d'))) * v (ix2 jj (j 1)) := by
  conv_lhs => rw [eq_ix2 j]
  exact pay1_al hpay q k v (j 0) (j 1)

/-- What point `t` writes back is block `t` of `G1` of the projected array as the region finds it. -/
theorem flushed1_eq (c : Dev nD) (t : Fin cfg1.N) :
    (dat1 V c).flushed 3 t = ((cfg1.win 3).blk t).view.read (Elt Ideal) (G1 (V c main_v1)) := by
  show (cfg1.win 3).cut (grid1.coords t) ((dat1 V c).after 3 t) = _
  rw [after1_3]
  unfold out1_3
  rw [View.canon_unit_zero hz1]
  simp only [View.ld_unit_zero (S := S1024x128) hz1]
  obtain ⟨e0, e1, e2, e3, e4, e5, e6, e7⟩ := idx_facts1 t
  funext j
  refine (pay1_j hpay (iblk1 V c 0 t) (iblk1 V c 1 t) (iblk1 V c 2 t) j).trans ?_
  have hj0 : (j 0).val < 1024 := (j 0).isLt
  have hj1 : (j 1).val < 128 := (j 1).isLt
  let P : S8192x2304.Idx → EReal := V c main_v1
  show (∑ jj : Fin 1024, (Cert.AttnSpec.scale * ∑ d' : Fin 64,
        P (((cfg1.win 0).blk t).view.emb (ix2 (j 0) (lane (halfOf (j 1)) d')))
          * P (((cfg1.win 1).blk t).view.emb (ix2 jj (lane (halfOf (j 1)) d'))))
        * P (((cfg1.win 2).blk t).view.emb (ix2 jj (j 1))))
    = G1 P (((cfg1.win 3).blk t).view.emb j)
  unfold G1
  refine Finset.sum_congr rfl fun jj _ => ?_
  have hjj : jj.val < 1024 := jj.isLt
  have hv : ((cfg1.win 2).blk t).view.emb (ix2 jj (j 1))
      = ix2 (rowOf ((((cfg1.win 3).blk t).view.emb j) 0) jj) (vcol ((((cfg1.win 3).blk t).view.emb j) 1)) := by
    funext a; apply Fin.ext
    match a with
    | ⟨0, _⟩ => show win1_2.index t (0 : Fin 2) * 1024 + 1 * jj.val = (win1_3.index t (0 : Fin 2) * 1024 + 1 * (j 0).val) / 1024 * 1024 + jj.val; omega
    | ⟨1, _⟩ => show win1_2.index t (1 : Fin 2) * 128 + 1 * (j 1).val = 1536 + (win1_3.index t (1 : Fin 2) * 128 + 1 * (j 1).val); omega
  rw [hv]
  congr 2
  refine Finset.sum_congr rfl fun d' _ => ?_
  have hd : d'.val < 64 := d'.isLt
  have hq : ((cfg1.win 0).blk t).view.emb (ix2 (j 0) (lane (halfOf (j 1)) d'))
      = ix2 ((((cfg1.win 3).blk t).view.emb j) 0) (qcol ((((cfg1.win 3).blk t).view.emb j) 1) d') := by
    funext a; apply Fin.ext
    match a with
    | ⟨0, _⟩ => show win1_0.index t (0 : Fin 2) * 1024 + 1 * (j 0).val = win1_3.index t (0 : Fin 2) * 1024 + 1 * (j 0).val; omega
    | ⟨1, _⟩ => show win1_0.index t (1 : Fin 2) * 128 + 1 * ((j 1).val / 64 * 64 + d'.val) = (win1_3.index t (1 : Fin 2) * 128 + 1 * (j 1).val) / 64 * 64 + d'.val; omega
  have hk : ((cfg1.win 1).blk t).view.emb (ix2 jj (lane (halfOf (j 1)) d'))
      = ix2 (rowOf ((((cfg1.win 3).blk t).view.emb j) 0) jj) (kcol ((((cfg1.win 3).blk t).view.emb j) 1) d') := by
    funext a; apply Fin.ext
    match a with
    | ⟨0, _⟩ => show win1_1.index t (0 : Fin 2) * 1024 + 1 * jj.val = (win1_3.index t (0 : Fin 2) * 1024 + 1 * (j 0).val) / 1024 * 1024 + jj.val; omega
    | ⟨1, _⟩ => show win1_1.index t (1 : Fin 2) * 128 + 1 * ((j 1).val / 64 * 64 + d'.val) = 768 + ((win1_3.index t (1 : Fin 2) * 128 + 1 * (j 1).val) / 64 * 64 + d'.val); omega
  rw [hq, hk]
  rfl

/-- The attention output array after the region. -/
theorem final1 (c : Dev nD) : (dat1 V c).arrAt 3 cfg1.N = G1 (V c main_v1) :=
  (dat1 V c).arrAt_eq_of_cover 3 (G1 (V c main_v1)) (fun t _ => flushed1_eq V hpay c t) cover1

end

end Cert.KernelIdeal.Val

end
-- ==== Proof.KernelIdealValue2.lean ====
/-
  The output projection's result array after its sixteen grid points, on the extended reals: row `r`, column `e` holds
  the contraction of row `r` of the attention output with row `e` of the weight, plus entry `e` of the bias row. Point
  `t` writes back rows 512·t … 512·t+511, reading the same rows of its input, the whole weight and the whole bias row.
-/
import proofs.«123587_j84585085927925_2_alg».proof.Proof.KernelIdealRegion2
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)
open scoped BigOperators

-- the TensorCore's buffer contents when the region is entered
variable (V : (c : Dev nD) → (b : Ref sig .tc) → Buf (Elt Ideal) ((c : Thread nD τ).loc b))

theorem hz2 : (![0, 0] : Fin 2 → Nat) = fun _ => 0 := funext fun a => by fin_cases a <;> rfl

/-- The result array as a function of the attention output `a : [8192, 768]`, the weight `w : [768, 768]` and the
    bias row `b : [1, 768]`. -/
def G2 (a : S8192x768.Idx → EReal) (w : S768x768.Idx → EReal) (b : S1x768.Idx → EReal) : S8192x768.Idx → EReal :=
  fun i => (∑ k : Fin 768, a (ix2 (i 0) k) * w (ix2 (i 1) k)) + b (ix2 (0 : Fin 1) (i 1))

/-- The printed index maps over the grid: the input's and the output's row block is the point, every other block index zero. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- An index of the array is in point `t`'s block iff each coordinate is in the block's range on its axis. -/
theorem mem_blk2 (t : Fin cfg2.N) (i : S8192x768.Idx) :
    i ∈ ((cfg2.win 3).blk t).view.set ↔ ∀ a : Fin 2, win2_3.index t a * S512x768.size a ≤ (i a).val ∧ (i a).val < win2_3.index t a * S512x768.size a + S512x768.size a := by
  show i ∈ ((View.whole main_v4).slice (win2_3.rect t)).set ↔ _
  rw [View.set_slice_whole, Rect.mem_set_unit]
  exact Iff.rfl

/-- Every index is in some point's block: row `r` is in block `r / 512`. -/
theorem cover2 (i : S8192x768.Idx) : ∃ t : Fin cfg2.N, (cfg2.win 3).flush t = true ∧ i ∈ ((cfg2.win 3).blk t).view.set := by
  have hi0 : (i 0).val < 8192 := (i 0).isLt
  have hi1 : (i 1).val < 768 := (i 1).isLt
  let t : Fin cfg2.N := ⟨(i 0).val / 512, by show (i 0).val / 512 < grid2.N; rw [N_2]; omega⟩
  obtain ⟨e0, e1, e2, e3, e4, e5, e6, e7⟩ := idx_facts2 t
  have ht : t.val = (i 0).val / 512 := rfl
  refine ⟨t, flush2_3 t, ?_⟩
  rw [mem_blk2]
  intro a
  match a with
  | ⟨0, _⟩ => show win2_3.index t (0 : Fin 2) * 512 ≤ (i 0).val ∧ (i 0).val < win2_3.index t (0 : Fin 2) * 512 + 512; omega
  | ⟨1, _⟩ => show win2_3.index t (1 : Fin 2) * 768 ≤ (i 1).val ∧ (i 1).val < win2_3.index t (1 : Fin 2) * 768 + 768; omega

section
variable (hpay : ∀ (a : Vec Ideal S512x768 .f32) (w : Vec Ideal S768x768 .f32) (bias : Vec Ideal S1x768 .f32) (p : Fin 512) (e : Fin 768),
  k2_pay1 (F := Ideal) a w bias (ix2 p e) = (∑ k : Fin 768, a (ix2 p k) * w (ix2 e k)) + bias (ix2 (0 : Fin 1) e))
include hpay

/-- The body's stored value at any index of the block. -/
theorem pay2_j (a : Vec Ideal S512x768 .f32) (w : Vec Ideal S768x768 .f32) (bias : Vec Ideal S1x768 .f32) (j : S512x768.Idx) :
    k2_pay1 (F := Ideal) a w bias j = (∑ k : Fin 768, a (ix2 (j 0) k) * w (ix2 (j 1) k)) + bias (ix2 (0 : Fin 1) (j 1)) := by
  conv_lhs => rw [eq_ix2 j]
  exact hpay a w bias (j 0) (j 1)

/-- What point `t` writes back is block `t` of `G2` of the arrays as the region finds them. -/
theorem flushed2_eq (c : Dev nD) (t : Fin cfg2.N) :
    (dat2 V c).flushed 3 t = ((cfg2.win 3).blk t).view.read (Elt Ideal) (G2 (V c main_v2) (V c main_arg2) (V c main_v3)) := by
  show (cfg2.win 3).cut (grid2.coords t) ((dat2 V c).after 3 t) = _
  rw [after2_3]
  unfold out2_3
  rw [View.canon_unit_zero hz2]
  simp only [View.ld_unit_zero (S := S512x768) hz2, View.ld_unit_zero (S := S768x768) hz2, View.ld_unit_zero (S := S1x768) hz2]
  obtain ⟨e0, e1, e2, e3, e4, e5, e6, e7⟩ := idx_facts2 t
  funext j
  refine (pay2_j hpay (iblk2 V c 0 t) (iblk2 V c 1 t) (iblk2 V c 2 t) j).trans ?_
  let A : S8192x768.Idx → EReal := V c main_v2
  let Wt : S768x768.Idx → EReal := V c main_arg2
  let Bs : S1x768.Idx → EReal := V c main_v3
  show (∑ k : Fin 768, A (((cfg2.win 0).blk t).view.emb (ix2 (j 0) k)) * Wt (((cfg2.win 1).blk t).view.emb (ix2 (j 1) k)))
      + Bs (((cfg2.win 2).blk t).view.emb (ix2 (0 : Fin 1) (j 1)))
    = (∑ k : Fin 768, A (ix2 ((((cfg2.win 3).blk t).view.emb j) 0) k) * Wt (ix2 ((((cfg2.win 3).blk t).view.emb j) 1) k))
      + Bs (ix2 (0 : Fin 1) ((((cfg2.win 3).blk t).view.emb j) 1))
  have hb : ((cfg2.win 2).blk t).view.emb (ix2 (0 : Fin 1) (j 1)) = ix2 (0 : Fin 1) ((((cfg2.win 3).blk t).view.emb j) 1) := by
    funext a; apply Fin.ext
    match a with
    | ⟨0, _⟩ => show win2_2.index t (0 : Fin 2) * 1 + 1 * 0 = 0; omega
    | ⟨1, _⟩ => show win2_2.index t (1 : Fin 2) * 768 + 1 * (j 1).val = win2_3.index t (1 : Fin 2) * 768 + 1 * (j 1).val; omega
  rw [hb]
  congr 1
  refine Finset.sum_congr rfl fun k _ => ?_
  have h0 : ((cfg2.win 0).blk t).view.emb (ix2 (j 0) k) = ix2 ((((cfg2.win 3).blk t).view.emb j) 0) k := by
    funext a; apply Fin.ext
    match a with
    | ⟨0, _⟩ => show win2_0.index t (0 : Fin 2) * 512 + 1 * (j 0).val = win2_3.index t (0 : Fin 2) * 512 + 1 * (j 0).val; omega
    | ⟨1, _⟩ => show win2_0.index t (1 : Fin 2) * 768 + 1 * k.val = k.val; omega
  have h1 : ((cfg2.win 1).blk t).view.emb (ix2 (j 1) k) = ix2 ((((cfg2.win 3).blk t).view.emb j) 1) k := by
    funext a; apply Fin.ext
    match a with
    | ⟨0, _⟩ => show win2_1.index t (0 : Fin 2) * 768 + 1 * (j 1).val = win2_3.index t (1 : Fin 2) * 768 + 1 * (j 1).val; omega
    | ⟨1, _⟩ => show win2_1.index t (1 : Fin 2) * 768 + 1 * k.val = k.val; omega
  rw [h0, h1]
  rfl

/-- The result array after the region. -/
theorem final2 (c : Dev nD) : (dat2 V c).arrAt 3 cfg2.N = G2 (V c main_v2) (V c main_arg2) (V c main_v3) :=
  (dat2 V c).arrAt_eq_of_cover 3 (G2 (V c main_v2) (V c main_arg2) (V c main_v3)) (fun t _ => flushed2_eq V hpay c t) cover2

end

end Cert.KernelIdeal.Val

end
-- ==== Proof.KernelIsSpec.lean ====
/-
  The three pallas calls composed, with the reshapes around them, are the specification: for activations `x`, weights
  `w_qkv`, `w_fc` and bias `b_fc`, the [8192, 768] result of the output projection applied to the attention output of
  the projection of the flattened activations, laid out again as [8, 1024, 768], is `AttnSpec.G` index by index.
  Row `b·1024 + n` of a flattened array is row `(b, n)`; the batch of that row is `b`, so the 1024 rows the attention
  core sums over are rows `(b, j)`; output column `k` reads head `k / 64`, and `1536 + k` is lane `k % 64` of that head
  in the v section.
-/
import proofs.«123587_j84585085927925_2_alg».proof.Proof.KernelIdealValue0
import proofs.«123587_j84585085927925_2_alg».proof.Proof.KernelIdealValue1
import proofs.«123587_j84585085927925_2_alg».proof.Proof.KernelIdealValue2
import proofs.«123587_j84585085927925_2_alg».proof.Proof.AttnSpec
import Idealize.ShloMosaic.Lib.Pipeline.Value
import Idealize.ShloMosaic.Lib.ValueIdx

noncomputable section

namespace Cert.KernelIdeal.Val

open Cert.KernelIdeal Cert.KernelIdeal.Gen Cert.AttnSpec
open Idealize.ShloMosaic Idealize.ShloMosaic.ValueIdx
open scoped BigOperators

variable (x : S8x1024x768.Idx → EReal) (wqkv : S2304x768.Idx → EReal) (wfc : S768x768.Idx → EReal) (bfc : S768.Idx → EReal)

/-- Row `(b, n)` of the flattened arrays. -/
def flatRow (b : Fin 8) (n : Fin 1024) : Fin 8192 := ⟨b.val * 1024 + n.val, by have := b.isLt; have := n.isLt; omega⟩

/-- The flattened activations at row `(b, n)`. -/
theorem flat_x (b : Fin 8) (n : Fin 1024) (k : Fin 768) :
    shapeCast S8192x768 x shapeCasts_S8x1024x768_S8192x768 (ix2 (flatRow b n) k) = x (ix3 b n k) :=
  shapeCast_apply x _ (ix2 (flatRow b n) k) (ix3 b n k) (by
    rw [Shape.rowMajor_val_three, Shape.rowMajor_val_two]; rfl)

/-- The bias laid as a row. -/
theorem row_bias (e : Fin 768) :
    shapeCast S1x768 bfc shapeCasts_S768_S1x768 (ix2 (0 : Fin 1) e) = bfc (ix1 e) :=
  shapeCast_apply bfc _ (ix2 (0 : Fin 1) e) (ix1 e) (by
    rw [Shape.rowMajor_val_one, Shape.rowMajor_val_two]; show e.val = 0 * 768 + e.val; omega)

/-- The projected array at row `(b, n)` is the specification's projection. -/
theorem G0_at (b : Fin 8) (n : Fin 1024) (e : Fin 2304) :
    G0 (shapeCast S8192x768 x shapeCasts_S8x1024x768_S8192x768) wqkv (ix2 (flatRow b n) e) = proj x wqkv b n e := by
  show (∑ k : Fin 768, shapeCast S8192x768 x shapeCasts_S8x1024x768_S8192x768 (ix2 (flatRow b n) k) * wqkv (ix2 e k)) = _
  unfold proj
  exact Finset.sum_congr rfl fun k _ => by rw [flat_x]

theorem rowOf_flat (b : Fin 8) (n j : Fin 1024) : rowOf (flatRow b n) j = flatRow b j := by
  apply Fin.ext; show (b.val * 1024 + n.val) / 1024 * 1024 + j.val = b.val * 1024 + j.val
  have := n.isLt; omega
theorem qcol_eq (k : Fin 768) (d : Fin 64) : qcol k d = colQ (headOf k) d := Fin.ext rfl
theorem kcol_eq (k : Fin 768) (d : Fin 64) : kcol k d = colK (headOf k) d := Fin.ext rfl
theorem vcol_eq (k : Fin 768) : vcol k = colV (headOf k) (laneOf k) := by
  apply Fin.ext; show 1536 + k.val = 1536 + (k.val / 64 * 64 + k.val % 64); omega

/-- The attention output at row `(b, n)`, column `k` is the specification's merged heads. -/
theorem G1_at (b : Fin 8) (n : Fin 1024) (k : Fin 768) :
    G1 (G0 (shapeCast S8192x768 x shapeCasts_S8x1024x768_S8192x768) wqkv) (ix2 (flatRow b n) k) = merged x wqkv b n k := by
  show (∑ j : Fin 1024, (scale * ∑ d : Fin 64,
        G0 (shapeCast S8192x768 x shapeCasts_S8x1024x768_S8192x768) wqkv (ix2 (flatRow b n) (qcol k d))
          * G0 (shapeCast S8192x768 x shapeCasts_S8x1024x768_S8192x768) wqkv (ix2 (rowOf (flatRow b n) j) (kcol k d)))
      * G0 (shapeCast S8192x768 x shapeCasts_S8x1024x768_S8192x768) wqkv (ix2 (rowOf (flatRow b n) j) (vcol k))) = _
  unfold merged heads score
  refine Finset.sum_congr rfl fun j _ => ?_
  rw [rowOf_flat, vcol_eq, G0_at]
  congr 2
  exact Finset.sum_congr rfl fun d _ => by rw [qcol_eq, kcol_eq, G0_at, G0_at]

/-- THE COMPOSITION IS THE SPECIFICATION. -/
theorem composed_eq_spec :
    shapeCast S8x1024x768
      (G2 (G1 (G0 (shapeCast S8192x768 x shapeCasts_S8x1024x768_S8192x768) wqkv)) wfc (shapeCast S1x768 bfc shapeCasts_S768_S1x768))
      shapeCasts_S8192x768_S8x1024x768
    = Cert.AttnSpec.G x wqkv wfc bfc := by
  funext i
  obtain ⟨b, n, e, rfl⟩ : ∃ (b : Fin 8) (n : Fin 1024) (e : Fin 768), i = ix3 b n e := ⟨i 0, i 1, i 2, eq_ix3 i⟩
  rw [shapeCast_apply _ _ (ix3 b n e) (ix2 (flatRow b n) e) (by
    rw [Shape.rowMajor_val_three, Shape.rowMajor_val_two]; rfl), G_ix3]
  show (∑ k : Fin 768, G1 (G0 (shapeCast S8192x768 x shapeCasts_S8x1024x768_S8192x768) wqkv) (ix2 (flatRow b n) k) * wfc (ix2 e k))
      + shapeCast S1x768 bfc shapeCasts_S768_S1x768 (ix2 (0 : Fin 1) e) = _
  unfold result
  rw [row_bias]
  congr 1
  exact Finset.sum_congr rfl fun k _ => by rw [G1_at]

end Cert.KernelIdeal.Val

end
-- ==== Proof.LibContractRows.lean ====
/-
  Rows against rows: the contraction `[M, K] × [N, K] → [M, N]` over the LAST axis of both operands, read at an index.

  For the dimension numbers "contract axis 1 with axis 1, no batch axis" (`DotDims.transposedRhs M K N`) the entry
  `(p, q)` of the product is `Σ_k l[p,k] · r[q,k]`: row `p` of the left operand against row `q` of the right one. The
  contraction's own index type has one axis of extent `K`; the sum is re-indexed over `Fin K` through that axis, and the
  operand indices the dimension numbers compute are then `(p, k)` and `(q, k)`. Stated for a matrix product into a zero
  accumulator and for the host's `dot_general`, on the extended reals, where both are that plain sum.
-/
import Idealize.ShloMosaic.PureOps.Ideal.Laws
import Idealize.ShloMosaic.Lib.ValueIdx

noncomputable section

namespace Idealize.ShloMosaic.ContractRows

open Idealize.ShloMosaic Idealize.ShloMosaic.ValueIdx

variable {M K N : Nat}

/-- The left operand's index keeps the output's row. -/
theorem lhs_row (j : (⟨2, ![M, N]⟩ : Shape).Idx) (k : (DotDims.transposedRhs M K N).contr.Idx) :
    ((DotDims.transposedRhs M K N).lhsIdx j k 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's index runs along its last axis with the contraction. -/
theorem lhs_col (j : (⟨2, ![M, N]⟩ : Shape).Idx) (k : (DotDims.transposedRhs M K N).contr.Idx) :
    ((DotDims.transposedRhs M K N).lhsIdx j k 1).val = (k ⟨0, Nat.zero_lt_one⟩).val :=
  (DotDims.transposedRhs M K N).lhsIdx_val_of_single rfl j k

/-- The right operand's index takes its row from the output's column. -/
theorem rhs_row (j : (⟨2, ![M, N]⟩ : Shape).Idx) (k : (DotDims.transposedRhs M K N).contr.Idx) :
    ((DotDims.transposedRhs M K N).rhsIdx j k 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's index runs along its last axis with the contraction. -/
theorem rhs_col (j : (⟨2, ![M, N]⟩ : Shape).Idx) (k : (DotDims.transposedRhs M K N).contr.Idx) :
    ((DotDims.transposedRhs M K N).rhsIdx j k 1).val = (k ⟨0, Nat.zero_lt_one⟩).val :=
  (DotDims.transposedRhs M K N).rhsIdx_val_of_single rfl j k

/-- THE SUM: over the contraction's index it is the sum over `k : Fin K` of row `p` against row `q`. -/
theorem sum_rows (l : (⟨2, ![M, K]⟩ : Shape).Idx → EReal) (r : (⟨2, ![N, K]⟩ : Shape).Idx → EReal) (p : Fin M) (q : Fin N) :
    (∑ k : (DotDims.transposedRhs M K N).contr.Idx,
        l ((DotDims.transposedRhs M K N).lhsIdx (ix2 p q) k) * r ((DotDims.transposedRhs M K N).rhsIdx (ix2 p q) k))
      = ∑ k : Fin K, l (ix2 p k) * r (ix2 q k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact lhs_row _ _
      | ⟨1, _⟩ => exact (lhs_col _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact rhs_row _ _
      | ⟨1, _⟩ => exact (rhs_col _ _).trans hk)
  rw [el, er]

/-- A matrix product into the zero accumulator, rows against rows, at `(p, q)`. -/
theorem matmul_zero_apply {φ₁ φ₂ : FTy} (prec : Option ContractPrecision)
    (l : FVec Ideal (⟨2, ![M, K]⟩ : Shape) φ₁) (r : FVec Ideal (⟨2, ![N, K]⟩ : Shape) φ₂) (p : Fin M) (q : Fin N) :
    FloatOps.matmul (DotDims.transposedRhs M K N) prec l r (constant (⟨2, ![M, N]⟩ : Shape) .f32 0x00000000#32) (ix2 p q)
      = ∑ k : Fin K, l (ix2 p k) * r (ix2 q k) :=
  (Ideal.matmul_constant_zero_apply (DotDims.transposedRhs M K N) prec l r (ix2 p q)).trans (sum_rows l r p q)

/-- The host's `dot_general`, rows against rows, at `(p, q)`. -/
theorem dotGeneral_apply {φ₁ φ₂ : FTy} (prec : Option ContractPrecision) (sched : HostSchedule)
    (l : FVec Ideal (⟨2, ![M, K]⟩ : Shape) φ₁) (r : FVec Ideal (⟨2, ![N, K]⟩ : Shape) φ₂) (p : Fin M) (q : Fin N) :
    FloatOps.dotGeneral (DotDims.transposedRhs M K N) prec sched l r (ix2 p q) = ∑ k : Fin K, l (ix2 p k) * r (ix2 q k) :=
  (Ideal.dotGeneral_apply (DotDims.transposedRhs M K N) prec sched l r (ix2 p q)).trans (sum_rows l r p q)

end Idealize.ShloMosaic.ContractRows

end
-- ==== Proof.KernelPayRows.lean ====
/-
  The first and the third kernel body's stored value, read at one index, on the extended reals.

  The first body's value at (p, e) is row p of its left block against row e of its right block:
  Σ_k x[p, k] · w[e, k]. The third body's is the same contraction plus the bias row: Σ_k a[p, k] · w[e, k] + bias[0, e].
  The narrowing of the operands before the product is the identity on the extended reals, and the product is
  accumulated into zeros.
-/
import proofs.«123587_j84585085927925_2_alg».proof.Proof.Gen.KernelIdeal.Skeleton
import proofs.«123587_j84585085927925_2_alg».proof.Proof.LibContractRows
import Idealize.ShloMosaic.Lib.Pipeline.Value

noncomputable section

namespace Cert.KernelPay

open Cert.KernelIdeal Cert.KernelIdeal.Gen Idealize.ShloMosaic Idealize.ShloMosaic.ValueIdx
open scoped BigOperators

theorem pay0_at (x : Vec Ideal S512x768 .f32) (w : Vec Ideal S2304x768 .f32) (p : Fin 512) (e : Fin 2304) :
    k0_pay1 (F := Ideal) x w (ix2 p e) = ∑ k : Fin 768, x (ix2 p k) * w (ix2 e k) := by
  unfold k0_pay1
  simp only [shapeCast_self]
  exact ContractRows.matmul_zero_apply (M := 512) (K := 768) (N := 2304) none _ _ p e

theorem pay2_at (a : Vec Ideal S512x768 .f32) (w : Vec Ideal S768x768 .f32) (bias : Vec Ideal S1x768 .f32) (p : Fin 512) (e : Fin 768) :
    k2_pay1 (F := Ideal) a w bias (ix2 p e) = (∑ k : Fin 768, a (ix2 p k) * w (ix2 e k)) + bias (ix2 (0 : Fin 1) e) := by
  unfold k2_pay1
  simp only [shapeCast_self]
  rw [addf_apply]
  have hb : broadcastTo S512x768 bias broadcasts_S1x768_S512x768 (ix2 p e) = bias (ix2 (0 : Fin 1) e) :=
    broadcastTo_apply bias broadcasts_S1x768_S512x768 (ix2 p e) (ix2 (0 : Fin 1) e) (fun a => match a with
      | ⟨0, _⟩ => by show (0 : Nat) = if (1 : Nat) = 1 then 0 else e.val; rw [if_pos rfl]
      | ⟨1, _⟩ => by show e.val = if (768 : Nat) = 1 then 0 else e.val; rw [if_neg (by decide)])
  rw [hb]
  exact congrArg (· + bias (ix2 (0 : Fin 1) e)) (ContractRows.matmul_zero_apply (M := 512) (K := 768) (N := 768) none _ _ p e)

end Cert.KernelPay

end
-- ==== Proof.LibContractPlain.lean ====
/-
  The plain product of an M×K matrix by a K×N matrix, read at one entry, at the ideal values.

  A kernel's matrix unit accumulates the product into a splat of zeros; the host's product has no accumulator.
  Both, read at entry (a, b), are the sum over the contracted coordinate c of A (a, c) · B (c, b): a finite sum
  on the extended reals, with no rounding and no order of summation left in it.

  The dimension record is a parameter with an equation to the library's canonical plain record, so that a printed
  program's own record (the same six lists under another name) is accepted with `rfl`.
-/
import Idealize.ShloMosaic.Lib.StackMember

noncomputable section

namespace Cert.Lib.ContractPlain

open Idealize.ShloMosaic Idealize.ShloMosaic.ValueIdx

/-- The host's product of an M×K by a K×N matrix, read at (a, b), is the sum over c of A (a, c) · B (c, b). -/
theorem hostDot_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    Host.dotGeneral D prec A B (ix2 a b) = ∑ c : Fin K, A (ix2 a c) * B (ix2 c b) := by
  subst hD
  exact StackMember.dotGeneral_plain_apply prec A B a b

/-- A kernel's product of an M×K by a K×N matrix accumulated into the zero splat, read at (a, b), is the same sum:
    the accumulator contributes `0 + ·`. -/
theorem matmulZero_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    matmul D prec A B (constant (F := Ideal) ⟨2, ![M, N]⟩ .f32 0x00000000#32) (ix2 a b)
      = ∑ c : Fin K, A (ix2 a c) * B (ix2 c b) := by
  rw [matmul_zero_eq_dotGeneral]
  exact hostDot_apply D hD prec A B a b

end Cert.Lib.ContractPlain

end
-- ==== Proof.KernelPay.lean ====
/-
  The middle kernel body's stored value, read at one index, on the extended reals.

  The body works on the two 64-lane halves of a 128-lane block separately: in half g, the value at row i, lane d is
      Σ_j (8 · Σ_d' q[i, g·64 + d'] · k[j, g·64 + d']) · v[j, g·64 + d].
  The body multiplies q by 8 before the first contraction, Σ_d' (q · 8) · k; the word it multiplies by denotes the real
  number 8, a nonnegative finite factor, and multiplication by such a factor distributes over sums of extended reals,
  so the factor moves out of the sum. The narrowing of the operands before each product is the identity on the
  extended reals, each product is accumulated into zeros, and the transposed k block read at (d', j) is k at (j, d').
-/
import proofs.«123587_j84585085927925_2_alg».proof.Proof.KernelPayRows
import proofs.«123587_j84585085927925_2_alg».proof.Proof.AttnSpec
import proofs.«123587_j84585085927925_2_alg».proof.Proof.LibContractPlain

noncomputable section

namespace Cert.KernelPay

open Cert.KernelIdeal Cert.KernelIdeal.Gen Idealize.ShloMosaic Idealize.ShloMosaic.ValueIdx
open scoped BigOperators

/-- lane g d = g*64 + d : the d-th lane of half g of a 128-lane block -/
def lane (g : Fin 2) (d : Fin 64) : Fin 128 := ⟨g.val * 64 + d.val, by have := g.isLt; have := d.isLt; omega⟩

/-! ## The scale is the real number 8 -/

theorem scale_eq : Cert.AttnSpec.scale = ((8 : ℝ) : EReal) := by
  unfold Cert.AttnSpec.scale
  simp [Ideal.ofBits, Ideal.ieee, -EReal.coe_mul]; norm_num

theorem scale_nonneg : 0 ≤ Cert.AttnSpec.scale := by
  rw [scale_eq]; exact_mod_cast (by norm_num : (0 : ℝ) ≤ 8)

theorem scale_ne_top : Cert.AttnSpec.scale ≠ ⊤ := by
  rw [scale_eq]; exact EReal.coe_ne_top 8

/-- A factor 8 on the left operand of every product of a sum moves out of the sum. -/
theorem scale_sum {ι : Type*} (s : Finset ι) (a b : ι → EReal) :
    ∑ x ∈ s, (a x * Cert.AttnSpec.scale) * b x = Cert.AttnSpec.scale * ∑ x ∈ s, a x * b x := by
  classical
  induction s using Finset.induction_on with
  | empty => simp
  | insert i s hi ih =>
    rw [Finset.sum_insert hi, Finset.sum_insert hi, ih,
      EReal.left_distrib_of_nonneg_of_ne_top scale_nonneg scale_ne_top, mul_comm (a i) Cert.AttnSpec.scale, mul_assoc]

/-! ## One half -/

/-- The transposed block at (d', j) is the block at (j, d'). -/
theorem transpose_at (K : FVec Ideal S1024x64 .bf16) (d' : Fin 64) (j : Fin 1024) :
    transpose S64x1024 [1, 0] K transposes_S1024x64_p1_0_S64x1024 (ix2 d' j) = K (ix2 j d') :=
  transpose_apply [1, 0] K transposes_S1024x64_p1_0_S64x1024 (ix2 d' j) (ix2 j d') (fun b => match b with
    | ⟨0, _⟩ => rfl
    | ⟨1, _⟩ => rfl)

/-- The two contractions of one half, from its q, k and v blocks. -/
theorem half_at (Q K V : FVec Ideal S1024x64 .f32) (i : Fin 1024) (d : Fin 64) :
    matmul dot_S1024x1024_S1024x64_S1024x64_1_0_0_1_n_n none
        (truncf .bf16 (matmul dot_S1024x64_S64x1024_S1024x1024_1_0_0_1_n_n none
            (truncf .bf16 (mulf Q (broadcast S1024x64 (Scalar.ofBits (F := Ideal) .f32 0x41000000#32))) bitsLt_bf16_f32)
            (transpose S64x1024 [1, 0] (truncf .bf16 K bitsLt_bf16_f32) transposes_S1024x64_p1_0_S64x1024)
            (constant (F := Ideal) S1024x1024 .f32 0x00000000#32)) bitsLt_bf16_f32)
        (truncf .bf16 V bitsLt_bf16_f32) (constant (F := Ideal) S1024x64 .f32 0x00000000#32) (ix2 i d)
      = ∑ j : Fin 1024, (Cert.AttnSpec.scale * ∑ d' : Fin 64, Q (ix2 i d') * K (ix2 j d')) * V (ix2 j d) := by
  refine (Cert.Lib.ContractPlain.matmulZero_apply dot_S1024x1024_S1024x64_S1024x64_1_0_0_1_n_n rfl none _ _ i d).trans ?_
  refine Finset.sum_congr rfl fun j _ => ?_
  rw [truncf_apply, truncf_apply]
  refine congrArg (· * V (ix2 j d)) ?_
  refine (Cert.Lib.ContractPlain.matmulZero_apply dot_S1024x64_S64x1024_S1024x1024_1_0_0_1_n_n rfl none _ _ i j).trans ?_
  rw [← scale_sum]
  refine Finset.sum_congr rfl fun d' _ => ?_
  rw [truncf_apply, mulf_apply, broadcast_apply, transpose_at, truncf_apply]
  rfl

/-! ## The two halves of a 128-lane block -/

/-- The low 64 lanes of a block at (i, d) are the block at lane d of half 0. -/
theorem slice0_at (x : FVec Ideal S1024x128 .f32) (i : Fin 1024) (d : Fin 64) :
    extractStridedSlice S1024x64 ![0, 0] x slices_S1024x128_o0_0_S1024x64 (ix2 i d) = x (ix2 i (lane 0 d)) :=
  extractStridedSlice_apply ![0, 0] x slices_S1024x128_o0_0_S1024x64 (ix2 i d) (ix2 i (lane 0 d)) (fun a => match a with
    | ⟨0, _⟩ => by show i.val = 0 + i.val; omega
    | ⟨1, _⟩ => by show 0 * 64 + d.val = 0 + d.val; omega)

/-- The high 64 lanes of a block at (i, d) are the block at lane d of half 1. -/
theorem slice1_at (x : FVec Ideal S1024x128 .f32) (i : Fin 1024) (d : Fin 64) :
    extractStridedSlice S1024x64 ![0, 64] x slices_S1024x128_o0_64_S1024x64 (ix2 i d) = x (ix2 i (lane 1 d)) :=
  extractStridedSlice_apply ![0, 64] x slices_S1024x128_o0_64_S1024x64 (ix2 i d) (ix2 i (lane 1 d)) (fun a => match a with
    | ⟨0, _⟩ => by show i.val = 0 + i.val; omega
    | ⟨1, _⟩ => by show 1 * 64 + d.val = 64 + d.val; omega)

/-! ## The middle body -/

theorem pay1_at (q k v : Vec Ideal S1024x128 .f32) (i : Fin 1024) (g : Fin 2) (d : Fin 64) :
    k1_pay1 (F := Ideal) q k v (ix2 i (lane g d))
      = ∑ j : Fin 1024, (Cert.AttnSpec.scale * ∑ d' : Fin 64, q (ix2 i (lane g d')) * k (ix2 j (lane g d'))) * v (ix2 j (lane g d)) := by
  have hg : g = 0 ∨ g = 1 := by
    rcases g with ⟨_ | _ | n, hn⟩
    · exact Or.inl rfl
    · exact Or.inr rfl
    · omega
  unfold k1_pay1
  simp only [shapeCast_self]
  rcases hg with rfl | rfl
  · refine (concatenate_pair_apply_left (s₁ := S1024x64) (s₂ := S1024x64) _ _ _ _ (ix2 i (lane 0 d)) rfl (ix2 i d) (fun b => match b with
      | ⟨0, _⟩ => rfl
      | ⟨1, _⟩ => by show d.val = 0 * 64 + d.val; omega)).trans ?_
    refine (half_at _ _ _ i d).trans ?_
    simp only [slice0_at]
  · refine (concatenate_pair_apply_right (s₁ := S1024x64) (s₂ := S1024x64) _ _ _ _ (ix2 i (lane 1 d)) rfl rfl (ix2 i d) (fun b hb => match b, hb with
      | ⟨0, _⟩, _ => rfl
      | ⟨1, _⟩, hb => absurd rfl hb) (by show d.val + 64 = 1 * 64 + d.val; omega)).trans ?_
    refine (half_at _ _ _ i d).trans ?_
    simp only [slice1_at]

end Cert.KernelPay

end
-- ==== Proof.KernelIdealValue.lean ====
/-
  The idealized kernel's result: the contents of the result array at the end of the run, read back through the six
  segments. The last reshape lays out the output projection's array; that array is `G2` of the attention output, the
  weight and the bias row (a reshape of the bias argument); the attention output is `G1` of the projected array; the
  projected array is `G0` of the flattened activations (a reshape of the activations argument) and the weight. No
  segment writes an argument, so each argument is read at its launch contents. Composed, this is the specification.
-/
import proofs.«123587_j84585085927925_2_alg».proof.Proof.KernelIdealRun
import proofs.«123587_j84585085927925_2_alg».proof.Proof.KernelIsSpec
import proofs.«123587_j84585085927925_2_alg».proof.Proof.KernelPay
import Idealize.ShloMosaic.Lib.StableHlo.Run

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Idealize.ShloMosaic.StableHlo
open Idealize.SL Idealize.SL.Sem
open scoped BigOperators

variable (m : (ℓ : Loc nD τ sig) → Buf (Elt Ideal) ℓ) (ρ : Dev nD → PrngReg)

/-! ## The arguments as each region finds them -/

theorem V1_arg1 (c : Dev nD) : V1 m ρ c main_arg1 = m ((c : Thread nD τ).loc main_arg1) :=
  (StableHlo.after_of_writes_sub hostOps0 _ hostOps0_writes (by decide)).trans rfl

theorem W3_arg (c : Dev nD) (b : Ref sig .tc) (h3 : b ≠ main_v2) (h2 : ∀ w, Pipeline.arrRef spec0 w ≠ b) (h0 : b ∉ hostOps0_W) :
    W3 m ρ c (Proc.devRef .tc b) = m ((c : Thread nD τ).loc b) :=
  (W3_of_ne m ρ c b h3).trans ((W2_of_ne m ρ c b h2).trans ((StableHlo.after_of_writes_sub hostOps0 _ hostOps0_writes h0).trans rfl))

theorem V4_arg2 (c : Dev nD) : V4 m ρ c main_arg2 = m ((c : Thread nD τ).loc main_arg2) :=
  (StableHlo.after_of_writes_sub hostOps2 _ hostOps2_writes (by decide)).trans (W3_arg m ρ c main_arg2 (by decide) (by decide) (by decide))

/-! ## The reshapes -/

/-- The projection reads the activations flattened to [8192, 768]. -/
theorem V1_v0 (c : Dev nD) :
    (V1 m ρ c main_v0 : S8192x768.Idx → EReal) = shapeCast S8192x768 (m ((c : Thread nD τ).loc main_arg0)) shapeCasts_S8x1024x768_S8192x768 := by
  show StableHlo.after hostOps0 (W0 m ρ c) (Proc.devRef .tc main_v0) = _
  after_results
  rfl

/-- The output projection reads the bias as a [1, 768] row. -/
theorem V4_v3 (c : Dev nD) :
    (V4 m ρ c main_v3 : S1x768.Idx → EReal) = shapeCast S1x768 (m ((c : Thread nD τ).loc main_arg3)) shapeCasts_S768_S1x768 := by
  have h : W3 m ρ c (Proc.devRef .tc main_arg3) = m ((c : Thread nD τ).loc main_arg3) := W3_arg m ρ c main_arg3 (by decide) (by decide) (by decide)
  show StableHlo.after hostOps2 (W3 m ρ c) (Proc.devRef .tc main_v3) = _
  after_results
  rw [h]
  rfl

/-! ## The regions' arrays -/

theorem V2_v1 (c : Dev nD) : V2 m ρ c main_v1 = G0 (V1 m ρ c main_v0) (V1 m ρ c main_arg1) :=
  (W2_arr m ρ c 2).trans (final0 (V1 m ρ) Cert.KernelPay.pay0_at c)

theorem V3_v2 (c : Dev nD) : V3 m ρ c main_v2 = G1 (V2 m ρ c main_v1) :=
  (W3_out m ρ c).trans (final1 (V2 m ρ) (fun q k v i g d => Cert.KernelPay.pay1_at q k v i g d) c)

theorem V4_v2 (c : Dev nD) : V4 m ρ c main_v2 = V3 m ρ c main_v2 :=
  StableHlo.after_of_writes_sub hostOps2 _ hostOps2_writes (by decide)

theorem V5_v4 (c : Dev nD) : V5 m ρ c main_v4 = G2 (V4 m ρ c main_v2) (V4 m ρ c main_arg2) (V4 m ρ c main_v3) :=
  (W5_arr m ρ c 3).trans (final2 (V4 m ρ) Cert.KernelPay.pay2_at c)

/-! ## The result -/

/-- The result array at the return is the specification of the argument arrays. -/
theorem result_eq (c : Dev nD) :
    (W6 m ρ c (Proc.devRef .tc main_v5) : S8x1024x768.Idx → EReal)
      = Cert.AttnSpec.G (m ((c : Thread nD τ).loc main_arg0)) (m ((c : Thread nD τ).loc main_arg1))
          (m ((c : Thread nD τ).loc main_arg2)) (m ((c : Thread nD τ).loc main_arg3)) := by
  have h5 : (W6 m ρ c (Proc.devRef .tc main_v5) : S8x1024x768.Idx → EReal)
      = shapeCast S8x1024x768 (V5 m ρ c main_v4) shapeCasts_S8192x768_S8x1024x768 := by
    show StableHlo.after hostOps3 (W5 m ρ c) (Proc.devRef .tc main_v5) = _
    after_results
    rfl
  rw [h5, V5_v4, V4_v2, V3_v2, V2_v1, V1_v0, V1_arg1, V4_arg2, V4_v3]
  exact composed_eq_spec _ _ _ _

/-- THE IDEALIZED KERNEL'S RUN, with its result named: the specification of the argument arrays. -/
theorem run : θ_run defs (onTc (τ := τ) (main (F := Ideal))) ⟨m, fun _ => 0, ρ⟩ (fun r => ∀ c : Dev nD,
      r.2.mem ((c.tc : Thread nD τ).loc main_v5)
        = Cert.AttnSpec.G (m ((c : Thread nD τ).loc main_arg0)) (m ((c : Thread nD τ).loc main_arg1))
            (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (result_eq m ρ c), (h c).2⟩) (run_main (F := Ideal) m ρ)

end Cert.KernelIdeal.Val

end
-- ==== Proof.RefIsSpec.lean ====
/-
  The reference program's result is the specification function `Cert.AttnSpec.G`.

  Each stage of the reference is read at an index built from its coordinates and identified with the matching stage of
  the specification:
    the first contraction                       is `proj`,
    its three column sections, split by heads   are `proj` at the q, k and v columns h·64 + d, 768 + h·64 + d, 1536 + h·64 + d,
    the scaled product of the q and k heads     is `score`,
    its product with the v heads                is `heads`,
    the heads laid side by side                 are `merged` (column k is lane k % 64 of head k / 64),
    the last contraction plus the bias          is `result`.
  The only arithmetic is on indices: with h < 12 and d < 64 the row-major position of (b, n, h, d) in
  [8, 1024, 12, 64] is the position of (b, n, h·64 + d) in [8, 1024, 768], and conversely (b, n, k) sits at
  (b, n, k / 64, k % 64).
-/
import proofs.«123587_j84585085927925_2_alg».proof.Proof.Gen.ReferenceIdeal.Read
import proofs.«123587_j84585085927925_2_alg».proof.Proof.AttnSpec

noncomputable section

namespace Cert.RefIsSpec

open Cert.ReferenceIdeal Cert.ReferenceIdeal.Read Cert.AttnSpec Idealize.ShloMosaic Idealize.ShloMosaic.ValueIdx
open scoped BigOperators

variable (x0 : (⟨S8x1024x768, .f32⟩ : BufTy).Contents (Elt Ideal)) (x1 : (⟨S2304x768, .f32⟩ : BufTy).Contents (Elt Ideal))
  (x2 : (⟨S768x768, .f32⟩ : BufTy).Contents (Elt Ideal)) (x3 : (⟨S768, .f32⟩ : BufTy).Contents (Elt Ideal))

/-! ## The projection -/

/-- The first contraction at (b, n, e) is row (b, n) of x against row e of w_qkv. -/
theorem v0_at (b : Fin 8) (n : Fin 1024) (e : Fin 2304) :
    val_main_v0 (F := Ideal) x0 x1 (ix3 b n e) = proj x0 x1 b n e := by
  rw [val_main_v0_apply]
  unfold proj
  refine Finset.sum_congr rfl fun k _ => ?_
  have hl : lidx_main_v0 (ix3 b n e) k = ix3 b n k := funext fun a => by
    match a with
    | ⟨0, _⟩ => rfl
    | ⟨1, _⟩ => rfl
    | ⟨2, _⟩ => rfl
  have hr : ridx_main_v0 (ix3 b n e) k = ix2 e k := funext fun a => by
    match a with
    | ⟨0, _⟩ => rfl
    | ⟨1, _⟩ => rfl
  rw [hl, hr]

/-! ## The three sections, split by heads -/

/-- Head h, lane d of row (b, i) in the split-and-transposed q section is column h·64 + d of the projection. -/
theorem idxQ (b : Fin 8) (h : Fin 12) (i : Fin 1024) (d : Fin 64) :
    idx_main_v1 (idx_main_v4 (idx_main_v5 (ix4 b h i d))) = ix3 b i (colQ h d) := funext fun a => Fin.ext (by
  have hb := b.isLt; have hh := h.isLt; have hi := i.isLt; have hd := d.isLt
  match a with
  | ⟨0, _⟩ => show (((b.val * 1024 + i.val) * 12 + h.val) * 64 + d.val) / 786432 = b.val; omega
  | ⟨1, _⟩ => show (((b.val * 1024 + i.val) * 12 + h.val) * 64 + d.val) / 768 % 1024 = i.val; omega
  | ⟨2, _⟩ => show (((b.val * 1024 + i.val) * 12 + h.val) * 64 + d.val) % 768 = h.val * 64 + d.val; omega)

/-- The same for the k section, whose columns start at 768. -/
theorem idxK (b : Fin 8) (h : Fin 12) (i : Fin 1024) (d : Fin 64) :
    idx_main_v2 (idx_main_v6 (idx_main_v7 (ix4 b h i d))) = ix3 b i (colK h d) := funext fun a => Fin.ext (by
  have hb := b.isLt; have hh := h.isLt; have hi := i.isLt; have hd := d.isLt
  match a with
  | ⟨0, _⟩ => show (((b.val * 1024 + i.val) * 12 + h.val) * 64 + d.val) / 786432 = b.val; omega
  | ⟨1, _⟩ => show (((b.val * 1024 + i.val) * 12 + h.val) * 64 + d.val) / 768 % 1024 = i.val; omega
  | ⟨2, _⟩ => show 768 + (((b.val * 1024 + i.val) * 12 + h.val) * 64 + d.val) % 768 = 768 + (h.val * 64 + d.val); omega)

/-- The same for the v section, whose columns start at 1536. -/
theorem idxV (b : Fin 8) (h : Fin 12) (i : Fin 1024) (d : Fin 64) :
    idx_main_v3 (idx_main_v8 (idx_main_v9 (ix4 b h i d))) = ix3 b i (colV h d) := funext fun a => Fin.ext (by
  have hb := b.isLt; have hh := h.isLt; have hi := i.isLt; have hd := d.isLt
  match a with
  | ⟨0, _⟩ => show (((b.val * 1024 + i.val) * 12 + h.val) * 64 + d.val) / 786432 = b.val; omega
  | ⟨1, _⟩ => show (((b.val * 1024 + i.val) * 12 + h.val) * 64 + d.val) / 768 % 1024 = i.val; omega
  | ⟨2, _⟩ => show 1536 + (((b.val * 1024 + i.val) * 12 + h.val) * 64 + d.val) % 768 = 1536 + (h.val * 64 + d.val); omega)

theorem v5_at (b : Fin 8) (h : Fin 12) (i : Fin 1024) (d : Fin 64) :
    val_main_v5 (F := Ideal) x0 x1 (ix4 b h i d) = proj x0 x1 b i (colQ h d) := by
  rw [val_main_v5_apply, val_main_v4_apply, val_main_v1_apply, idxQ, v0_at]

theorem v7_at (b : Fin 8) (h : Fin 12) (i : Fin 1024) (d : Fin 64) :
    val_main_v7 (F := Ideal) x0 x1 (ix4 b h i d) = proj x0 x1 b i (colK h d) := by
  rw [val_main_v7_apply, val_main_v6_apply, val_main_v2_apply, idxK, v0_at]

theorem v9_at (b : Fin 8) (h : Fin 12) (i : Fin 1024) (d : Fin 64) :
    val_main_v9 (F := Ideal) x0 x1 (ix4 b h i d) = proj x0 x1 b i (colV h d) := by
  rw [val_main_v9_apply, val_main_v8_apply, val_main_v3_apply, idxV, v0_at]

/-! ## The scaled scores -/

theorem v10_at (b : Fin 8) (h : Fin 12) (i j : Fin 1024) :
    val_main_v10 (F := Ideal) x0 x1 (ix4 b h i j)
      = ∑ d : Fin 64, proj x0 x1 b i (colQ h d) * proj x0 x1 b j (colK h d) := by
  rw [val_main_v10_apply]
  refine Finset.sum_congr rfl fun d _ => ?_
  have hl : lidx_main_v10 (ix4 b h i j) d = ix4 b h i d := funext fun a => by
    match a with
    | ⟨0, _⟩ => rfl
    | ⟨1, _⟩ => rfl
    | ⟨2, _⟩ => rfl
    | ⟨3, _⟩ => rfl
  have hr : ridx_main_v10 (ix4 b h i j) d = ix4 b h j d := funext fun a => by
    match a with
    | ⟨0, _⟩ => rfl
    | ⟨1, _⟩ => rfl
    | ⟨2, _⟩ => rfl
    | ⟨3, _⟩ => rfl
  rw [hl, hr, v5_at, v7_at]

theorem v12_at (b : Fin 8) (h : Fin 12) (i j : Fin 1024) :
    val_main_v12 (F := Ideal) x0 x1 (ix4 b h i j) = score x0 x1 b h i j := by
  rw [val_main_v12_apply, val_main_v11_apply, val_main_cst_apply, Ideal.mulf_def, Ideal.ofBits_def, v10_at]
  rfl

/-! ## The scores against the values -/

theorem v13_at (b : Fin 8) (h : Fin 12) (i : Fin 1024) (d : Fin 64) :
    val_main_v13 (F := Ideal) x0 x1 (ix4 b h i d) = heads x0 x1 b h i d := by
  rw [val_main_v13_apply]
  unfold heads
  refine Finset.sum_congr rfl fun j _ => ?_
  have hl : lidx_main_v13 (ix4 b h i d) j = ix4 b h i j := funext fun a => by
    match a with
    | ⟨0, _⟩ => rfl
    | ⟨1, _⟩ => rfl
    | ⟨2, _⟩ => rfl
    | ⟨3, _⟩ => rfl
  have hr : ridx_main_v13 (ix4 b h i d) j = ix4 b h j d := funext fun a => by
    match a with
    | ⟨0, _⟩ => rfl
    | ⟨1, _⟩ => rfl
    | ⟨2, _⟩ => rfl
    | ⟨3, _⟩ => rfl
  rw [hl, hr, v12_at, v9_at]

/-! ## The heads side by side -/

/-- Column k of row (b, n) of the merged array is lane k % 64 of head k / 64. -/
theorem idxM (b : Fin 8) (n : Fin 1024) (k : Fin 768) :
    idx_main_v14 (idx_main_v15 (ix3 b n k)) = ix4 b (headOf k) n (laneOf k) := funext fun a => Fin.ext (by
  have hb := b.isLt; have hn := n.isLt; have hk := k.isLt
  match a with
  | ⟨0, _⟩ => show ((b.val * 1024 + n.val) * 768 + k.val) / 786432 = b.val; omega
  | ⟨1, _⟩ => show ((b.val * 1024 + n.val) * 768 + k.val) / 64 % 12 = k.val / 64; omega
  | ⟨2, _⟩ => show ((b.val * 1024 + n.val) * 768 + k.val) / 768 % 1024 = n.val; omega
  | ⟨3, _⟩ => show ((b.val * 1024 + n.val) * 768 + k.val) % 64 = k.val % 64; omega)

theorem v15_at (b : Fin 8) (n : Fin 1024) (k : Fin 768) :
    val_main_v15 (F := Ideal) x0 x1 (ix3 b n k) = merged x0 x1 b n k := by
  rw [val_main_v15_apply, val_main_v14_apply, idxM, v13_at]
  rfl

/-! ## The output projection and the bias -/

theorem v16_at (b : Fin 8) (n : Fin 1024) (e : Fin 768) :
    val_main_v16 (F := Ideal) x0 x1 x2 (ix3 b n e) = ∑ k : Fin 768, merged x0 x1 b n k * x2 (ix2 e k) := by
  rw [val_main_v16_apply]
  refine Finset.sum_congr rfl fun k _ => ?_
  have hl : lidx_main_v16 (ix3 b n e) k = ix3 b n k := funext fun a => by
    match a with
    | ⟨0, _⟩ => rfl
    | ⟨1, _⟩ => rfl
    | ⟨2, _⟩ => rfl
  have hr : ridx_main_v16 (ix3 b n e) k = ix2 e k := funext fun a => by
    match a with
    | ⟨0, _⟩ => rfl
    | ⟨1, _⟩ => rfl
  rw [hl, hr, v15_at]

theorem v18_at (b : Fin 8) (n : Fin 1024) (e : Fin 768) :
    val_main_v18 (F := Ideal) x3 (ix3 b n e) = x3 (ix1 e) := by
  rw [val_main_v18_apply, val_main_v17_apply]
  have hi : idx_main_v17 (idx_main_v18 (ix3 b n e)) = ix1 e := funext fun a => by
    match a with
    | ⟨0, _⟩ => rfl
  rw [hi]

/-- The reference's result is the specification. -/
theorem ref_eq
    (x0 : (⟨Cert.ReferenceIdeal.S8x1024x768, .f32⟩ : BufTy).Contents (Elt Ideal)) (x1 : (⟨Cert.ReferenceIdeal.S2304x768, .f32⟩ : BufTy).Contents (Elt Ideal))
    (x2 : (⟨Cert.ReferenceIdeal.S768x768, .f32⟩ : BufTy).Contents (Elt Ideal)) (x3 : (⟨Cert.ReferenceIdeal.S768, .f32⟩ : BufTy).Contents (Elt Ideal)) :
    Cert.ReferenceIdeal.Read.val_main_v19 (F := Ideal) x0 x1 x2 x3 = Cert.AttnSpec.G x0 x1 x2 x3 := by
  funext i
  obtain ⟨b, n, e, rfl⟩ : ∃ (b : Fin 8) (n : Fin 1024) (e : Fin 768), i = ix3 b n e := ⟨i 0, i 1, i 2, eq_ix3 i⟩
  rw [val_main_v19_apply, Ideal.addf_def, v16_at, v18_at, G_ix3]
  rfl

end Cert.RefIsSpec

end
-- ==== Proof.lean ====
/-
  The proof of `Cert.Claim`: a multi-head attention block without softmax — a q/k/v projection, per head the scaled
  scores `8 · q kᵀ` applied to `v`, the heads merged, an output projection with bias — written as three pallas calls
  against one chain of einsums.

  FRAMES. Each of the two kernel programs is six segments (reshape, projection, attention core, reshape, output
  projection, reshape). Every pallas call's body loads whole blocks, computes, and overwrites its whole output block
  with one store; the pipeline rule takes that body triple at every grid point. The attention core reads its q, k and
  v blocks out of ONE array through three windows, so that array's share is dealt in three at the region's entry and
  joined at its exit. No segment writes an argument array. The reference is a host program: its run is read back
  operation by operation.

  VALUES, on the extended reals. Reading each pallas call's output array as one function of the arrays it found and
  composing the three with the reshapes gives the specification `AttnSpec.G`; the reference's composed term is the same
  function. The one place the two programs differ is the scale: the kernel multiplies q by 8 before contracting with
  k, the reference multiplies the contraction by 8; a nonnegative finite factor distributes over an extended-real sum,
  so the two agree with no appeal to the inputs' finiteness. A change of float format is the identity there, a matrix
  product into a zero accumulator is the plain sum, and the order of the sums is the same on both sides.

  The idealization rewrote no operation, so the `preserves` conjunct is `True`.
-/
import proofs.«123587_j84585085927925_2_alg».proof.Defs
import proofs.«123587_j84585085927925_2_alg».proof.Proof.Gen.Kernel
import proofs.«123587_j84585085927925_2_alg».proof.Proof.Gen.Kernel.Skeleton
import proofs.«123587_j84585085927925_2_alg».proof.Proof.Gen.Kernel.Launch
import proofs.«123587_j84585085927925_2_alg».proof.Proof.Gen.Kernel.Regions
import proofs.«123587_j84585085927925_2_alg».proof.Proof.Gen.Kernel.Points
import proofs.«123587_j84585085927925_2_alg».proof.Proof.Gen.KernelIdeal
import proofs.«123587_j84585085927925_2_alg».proof.Proof.Gen.KernelIdeal.Skeleton
import proofs.«123587_j84585085927925_2_alg».proof.Proof.Gen.KernelIdeal.Launch
import proofs.«123587_j84585085927925_2_alg».proof.Proof.Gen.KernelIdeal.Regions
import proofs.«123587_j84585085927925_2_alg».proof.Proof.Gen.KernelIdeal.Points
import proofs.«123587_j84585085927925_2_alg».proof.Proof.Gen.ReferenceIdeal
import proofs.«123587_j84585085927925_2_alg».proof.Proof.Gen.ReferenceIdeal.Run
import proofs.«123587_j84585085927925_2_alg».proof.Proof.Gen.ReferenceIdeal.Read
import proofs.«123587_j84585085927925_2_alg».proof.Proof.Gen.Pre_finite_inputs
import proofs.«123587_j84585085927925_2_alg».proof.Proof.KernelRun
import proofs.«123587_j84585085927925_2_alg».proof.Proof.KernelIdealValue
import proofs.«123587_j84585085927925_2_alg».proof.Proof.RefIsSpec
import Idealize.ShloMosaic.Adequacy
import Idealize.ShloMosaic.Init

noncomputable section

namespace Cert.Proof

open Idealize.ShloMosaic Idealize.SL.Sem

/-- The word-level kernel runs to the end and leaves its arguments as launched: its run with the result dropped. -/
theorem frame_k : Cert.frame_Kernel := fun m ρ _ =>
  (θ_run Cert.Kernel.defs _ _).mono (fun _ h c => (h c).2) (Cert.Kernel.Hand.run_main (F := Bits) m ρ)

/-- The same of the idealized kernel. -/
theorem frame_ki : Cert.frame_KernelIdeal := fun m ρ _ =>
  (θ_run Cert.KernelIdeal.defs _ _).mono (fun _ h c => (h c).2) (Cert.KernelIdeal.Hand.run_main (F := Ideal) m ρ)

/-- The reference is a host program: its run, read back, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the specification of the argument arrays in their result. -/
theorem algebraic : Cert.algebraic_KernelIdeal_ReferenceIdeal := by
  intro m ρ m' ρ' _ hagree
  refine ⟨fun c => Cert.AttnSpec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.RefIsSpec.ref_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
